-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg14 : FVec F S256 .f32) (main_arg15 : FVec F S256x128 .f32) (main_arg16 : FVec F S128 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S128x128 .f32) (main_arg12 : FVec F S128 .f32) (main_arg13 : FVec F S128x256 .f32) (main_arg14 : FVec F S256 .f32) (main_arg15 : FVec F S256x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x256 .f32) (main_arg14 : FVec F S256 .f32) (main_arg15 : FVec F S256x128 .f32) (main_arg16 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x256 .f32) (main_arg14 : FVec F S256 .f32) (main_arg15 : FVec F S256x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x128 .f32) (main_arg1 : FVec F S640000x128 .f32) (main_arg2 : FVec F S640000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x256 .f32) (main_arg14 : FVec F S256 .f32) (main_arg15 : FVec F S256x128 .f32) (main_arg16 : FVec F S128 .f32) (main_arg17 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S640000 .f32 := Host.absf main_arg2
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2x640000 : Shape := ⟨2, ![2, 640000]⟩
abbrev S1x640000 : Shape := ⟨2, ![1, 640000]⟩
abbrev S128x384 : Shape := ⟨2, ![128, 384]⟩
abbrev S384 : Shape := ⟨1, ![384]⟩
abbrev S1x384 : Shape := ⟨2, ![1, 384]⟩
abbrev S50000x384 : Shape := ⟨2, ![50000, 384]⟩
abbrev S2000x128 : Shape := ⟨2, ![2000, 128]⟩
abbrev S2000x384 : Shape := ⟨2, ![2000, 384]⟩
abbrev S1x128 : Shape := ⟨2, ![1, 128]⟩
abbrev S8000x128 : Shape := ⟨2, ![8000, 128]⟩
abbrev S_ : Shape := ⟨0, ![]⟩
abbrev S640000x1 : Shape := ⟨2, ![640000, 1]⟩
abbrev S1x256 : Shape := ⟨2, ![1, 256]⟩
abbrev S2000x256 : Shape := ⟨2, ![2000, 256]⟩

abbrev nBuf : Space → Nat
  | .hbm => 84
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S2x640000, .i32⟩
  | .hbm, ⟨18, _⟩ => ⟨S1x640000, .i32⟩
  | .hbm, ⟨19, _⟩ => ⟨S640000, .i32⟩
  | .hbm, ⟨20, _⟩ => ⟨S1x640000, .i32⟩
  | .hbm, ⟨21, _⟩ => ⟨S640000, .i32⟩
  | .hbm, ⟨22, _⟩ => ⟨S128x384, .f32⟩
  | .hbm, ⟨23, _⟩ => ⟨S384, .f32⟩
  | .hbm, ⟨24, _⟩ => ⟨S1x384, .f32⟩
  | .hbm, ⟨25, _⟩ => ⟨S50000x384, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S640000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S640000x128, .f32⟩
  | .hbm, ⟨59, _⟩ => ⟨S640000x128, .f32⟩
  | .hbm, ⟨60, _⟩ => ⟨S640000x1, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S_, .f32⟩
  | .hbm, ⟨77, _⟩ => ⟨S50000x128, .f32⟩
  | .hbm, ⟨78, _⟩ => ⟨S640000x1, .i32⟩
  | .hbm, ⟨79, _⟩ => ⟨S50000x128, .f32⟩
  | .hbm, ⟨80, _⟩ => ⟨S1x128, .f32⟩
  | .hbm, ⟨81, _⟩ => ⟨S1x256, .f32⟩
  | .hbm, ⟨82, _⟩ => ⟨S1x128, .f32⟩
  | .hbm, ⟨83, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S256_S1x256 : S256.ShapeCasts S1x256
  broadcasts_S1x128_S2000x128 : S1x128.Broadcasts S2000x128
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  dot_S2000x128_S128x384_S2000x384_1_0_0_1_n_n_wf : DotDims.WF S2000x128 S128x384 S2000x384 [1] [0] [0] [1] [] []
  dot_S8000x128_S128x128_S8000x128_1_0_0_1_n_n_wf : DotDims.WF S8000x128 S128x128 S8000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S50000x384.size a
  hwx0_3 : ∀ i : grid0.Coords, EltTy.bits .f32 = 32 ∨ (Rect.block (s := S50000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .f32 = 32 ∨ (Rect.block (s := S640000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S256x128.size a
  hwx2_6 : ∀ i : grid2.Coords, EltTy.bits .f32 = 32 ∨ (Rect.block (s := S256x128) S256x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S256x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2x640000 : Shape := ⟨2, ![2, 640000]⟩
abbrev S1x128 : Shape := ⟨2, ![1, 128]⟩
abbrev S1x640000 : Shape := ⟨2, ![1, 640000]⟩
abbrev S_ : Shape := ⟨0, ![]⟩
abbrev S640000x1 : Shape := ⟨2, ![640000, 1]⟩
abbrev S50000x256 : Shape := ⟨2, ![50000, 256]⟩
abbrev S1x256 : Shape := ⟨2, ![1, 256]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S2x640000, .i32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S640000x128, .f32⟩
  | .hbm, ⟨27, _⟩ => ⟨S1x128, .f32⟩
  | .hbm, ⟨28, _⟩ => ⟨S640000x128, .f32⟩
  | .hbm, ⟨29, _⟩ => ⟨S640000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S1x640000, .i32⟩
  | .hbm, ⟨39, _⟩ => ⟨S640000, .i32⟩
  | .hbm, ⟨40, _⟩ => ⟨S1x640000, .i32⟩
  | .hbm, ⟨41, _⟩ => ⟨S640000, .i32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S640000x1, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S640000x128, .f32⟩
  | .hbm, ⟨67, _⟩ => ⟨S640000x128, .f32⟩
  | .hbm, ⟨68, _⟩ => ⟨S_, .f32⟩
  | .hbm, ⟨69, _⟩ => ⟨S640000x128, .f32⟩
  | .hbm, ⟨70, _⟩ => ⟨S640000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S640000x128, .f32⟩
  | .hbm, ⟨81, _⟩ => ⟨S640000x128, .f32⟩
  | .hbm, ⟨82, _⟩ => ⟨S640000x128, .f32⟩
  | .hbm, ⟨83, _⟩ => ⟨S_, .f32⟩
  | .hbm, ⟨84, _⟩ => ⟨S50000x128, .f32⟩
  | .hbm, ⟨85, _⟩ => ⟨S640000x1, .i32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S640000x128, .f32⟩
  | .hbm, ⟨93, _⟩ => ⟨S640000x128, .f32⟩
  | .hbm, ⟨94, _⟩ => ⟨S50000x128, .f32⟩
  | .hbm, ⟨95, _⟩ => ⟨S640000x128, .f32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | .hbm, ⟨100, _⟩ => ⟨S_, .f32⟩
  | .hbm, ⟨101, _⟩ => ⟨S50000x256, .f32⟩
  | .hbm, ⟨102, _⟩ => ⟨S50000x256, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_1 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call0_cst : Ref sig .tc := ⟨.hbm, 88, rfl⟩
abbrev main_call0_v0 : Ref sig .tc := ⟨.hbm, 89, rfl⟩
abbrev main_v61 : Ref sig .tc := ⟨.hbm, 90, rfl⟩
abbrev main_call1_cst : Ref sig .tc := ⟨.hbm, 91, rfl⟩
abbrev main_call1_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S640000x128_0_1 : S1x128.BroadcastsInDim S640000x128 (![0, 1] : Fin 2 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S640000x128_S128x128_S640000x128_1_0_0_1_n_n_wf : DotDims.WF S640000x128 S128x128 S640000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.Reg0.lean ====
/-
  The first projection call, one grid point at a time. Each of its 25 grid points takes a block of 2000 rows of the node
  features, the whole 128×384 weight matrix (the three 128×128 weight matrices side by side) and the 1×384 bias row, and
  writes the 2000×384 block  rows · weights + bias.  This module states what one run of the body leaves in the result
  buffer as a function of the three input blocks, proves that the body does leave it, and packages that as the
  pipeline's requirement on the body at every grid point. Nothing here depends on the float semantics.
-/
import proofs.«131460_j31344671326721_2_alg».proof.Proof.K.LaunchP
import proofs.«131460_j31344671326721_2_alg».proof.Proof.Gen.Kernel.Skeleton
import proofs.«131460_j31344671326721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` that grid point `t` works on, cut out of the operand's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's staging buffer holds its block at every grid point, whether or not the block was copied in at that
    point: when it was not, the block's position has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input operand 1's staging buffer holds its block at every grid point, whether or not the block was copied in at that
    point: when it was not, the block's position has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input operand 2's staging buffer holds its block at every grid point, whether or not the block was copied in at that
    point: when it was not, the block's position has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads each staging buffer whole and writes the result buffer whole. -/

abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- The result buffer after the body, as a function of the input blocks: the body's one store, covering the whole buffer. -/
def out0_3 (x0 : Vec F S2000x128 .f32) (x1 : Vec F S128x384 .f32) (x2 : Vec F S1x384 .f32) : Vec F S2000x384 .f32 :=
  View.canon [⟨r0_3, k0_pay1 (View.ld x0 r0_0) (View.ld x1 r0_1) (View.ld x2 r0_2)⟩]

/-- The one store covers the buffer. -/
theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

set_option maxHeartbeats 4000000 in
/-- The body, started with the input buffers holding `x…` and the result buffer holding anything, runs to its end leaving
    the inputs as they were and the result buffer at `out0_3` of them. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the pipeline's bookkeeping records for this call on core `c`: the operand arrays as the call finds them; after the
    body at point `t`, each input buffer at its block and the result buffer at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is started with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's requirement on the body, at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  The edge projection call, one grid point at a time. Each of its 80 grid points takes a block of 8000 rows of the edge
  features, the whole 128×128 weight matrix and the 1×128 bias row, and writes the 8000×128 block
  rows · weights + bias.  This module states what one run of the body leaves in the result buffer as a function of the
  three input blocks, proves that the body does leave it, and packages that as the pipeline's requirement on the body at
  every grid point. Nothing here depends on the float semantics.
-/
import proofs.«131460_j31344671326721_2_alg».proof.Proof.K.LaunchP
import proofs.«131460_j31344671326721_2_alg».proof.Proof.Gen.Kernel.Skeleton
import proofs.«131460_j31344671326721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` that grid point `t` works on, cut out of the operand's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's staging buffer holds its block at every grid point, whether or not the block was copied in at that
    point: when it was not, the block's position has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input operand 1's staging buffer holds its block at every grid point, whether or not the block was copied in at that
    point: when it was not, the block's position has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input operand 2's staging buffer holds its block at every grid point, whether or not the block was copied in at that
    point: when it was not, the block's position has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body reads each staging buffer whole and writes the result buffer whole. -/

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S8000x128 := Rect.unit (s := S8000x128) ![0, 0] S8000x128.size inb_S8000x128_S8000x128_0_0

/-- The result buffer after the body, as a function of the input blocks: the body's one store, covering the whole buffer. -/
def out1_3 (x0 : Vec F S8000x128 .f32) (x1 : Vec F S128x128 .f32) (x2 : Vec F S1x128 .f32) : Vec F S8000x128 .f32 :=
  View.canon [⟨r1_3, k1_pay1 (View.ld x0 r1_0) (View.ld x1 r1_1) (View.ld x2 r1_2)⟩]

/-- The one store covers the buffer. -/
theorem cover1_3 (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

set_option maxHeartbeats 4000000 in
/-- The body, started with the input buffers holding `x…` and the result buffer holding anything, runs to its end leaving
    the inputs as they were and the result buffer at `out1_3` of them. -/
theorem sound_kernel1 (c : Dev nD) (E : Set ℕ) (i : grid1.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S8000x128 .f32) (harg4 : arg4.IsWhole)
    (x0 : Vec F S8000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the pipeline's bookkeeping records for this call on core `c`: the operand arrays as the call finds them; after the
    body at point `t`, each input buffer at its block and the result buffer at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is started with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's requirement on the body, at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  The node update call, one grid point at a time. Each of its 25 grid points takes a block of 2000 rows of the node
  features x and of the aggregated messages a, and the whole weights and bias rows of three dense layers, and writes
  the 2000×128 block  y + (max(y·W1 + b1, 0)·W2 + b2)  where  y = x + max(x·WA + bA + a, 0).  This module states what one
  run of the body leaves in the result buffer as a function of the eight input blocks, proves that the body does leave
  it, and packages that as the pipeline's requirement on the body at every grid point. Nothing here depends on the float
  semantics.
-/
import proofs.«131460_j31344671326721_2_alg».proof.Proof.K.LaunchP
import proofs.«131460_j31344671326721_2_alg».proof.Proof.Gen.Kernel.Skeleton
import proofs.«131460_j31344671326721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` that grid point `t` works on, cut out of the operand's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input operand 0's staging buffer holds its block at every grid point, whether or not the block was copied in at that
    point: when it was not, the block's position has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input operand 1's staging buffer holds its block at every grid point, whether or not the block was copied in at that
    point: when it was not, the block's position has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input operand 2's staging buffer holds its block at every grid point, whether or not the block was copied in at that
    point: when it was not, the block's position has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input operand 3's staging buffer holds its block at every grid point, whether or not the block was copied in at that
    point: when it was not, the block's position has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input operand 4's staging buffer holds its block at every grid point, whether or not the block was copied in at that
    point: when it was not, the block's position has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input operand 5's staging buffer holds its block at every grid point, whether or not the block was copied in at that
    point: when it was not, the block's position has not moved since the point before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input operand 6's staging buffer holds its block at every grid point, whether or not the block was copied in at that
    point: when it was not, the block's position has not moved since the point before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input operand 7's staging buffer holds its block at every grid point, whether or not the block was copied in at that
    point: when it was not, the block's position has not moved since the point before. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! The body reads each staging buffer whole and writes the result buffer whole. -/

abbrev r2_0 : Rect S2000x128 := Rect.unit (s := S2000x128) ![0, 0] S2000x128.size inb_S2000x128_S2000x128_0_0
abbrev r2_1 : Rect S2000x128 := Rect.unit (s := S2000x128) ![0, 0] S2000x128.size inb_S2000x128_S2000x128_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0
abbrev r2_4 : Rect S128x256 := Rect.unit (s := S128x256) ![0, 0] S128x256.size inb_S128x256_S128x256_0_0
abbrev r2_5 : Rect S1x256 := Rect.unit (s := S1x256) ![0, 0] S1x256.size inb_S1x256_S1x256_0_0
abbrev r2_6 : Rect S256x128 := Rect.unit (s := S256x128) ![0, 0] S256x128.size inb_S256x128_S256x128_0_0
abbrev r2_7 : Rect S1x128 := Rect.unit (s := S1x128) ![0, 0] S1x128.size inb_S1x128_S1x128_0_0
abbrev r2_8 : Rect S2000x128 := Rect.unit (s := S2000x128) ![0, 0] S2000x128.size inb_S2000x128_S2000x128_0_0

/-- The result buffer after the body, as a function of the input blocks: the body's one store, covering the whole buffer. -/
def out2_8 (x0 : Vec F S2000x128 .f32) (x1 : Vec F S2000x128 .f32) (x2 : Vec F S128x128 .f32) (x3 : Vec F S1x128 .f32) (x4 : Vec F S128x256 .f32) (x5 : Vec F S1x256 .f32) (x6 : Vec F S256x128 .f32) (x7 : Vec F S1x128 .f32) : Vec F S2000x128 .f32 :=
  View.canon [⟨r2_8, k2_pay1 (View.ld x0 r2_0) (View.ld x2 r2_2) (View.ld x3 r2_3) (View.ld x1 r2_1) (View.ld x4 r2_4) (View.ld x5 r2_5) (View.ld x6 r2_6) (View.ld x7 r2_7)⟩]

/-- The one store covers the buffer. -/
theorem cover2_8 (p0 : Vec F S2000x128 .f32) (y : S2000x128.Idx) :
    ∃ pc ∈ ([⟨r2_8, p0⟩] : List (View.Piece (Elt F) S2000x128 .f32)), y ∈ pc.1.set :=
  View.cover_of_tiled [⟨r2_8, p0⟩] S2000x128.size (by rfl) y

set_option maxHeartbeats 4000000 in
/-- The body, started with the input buffers holding `x…` and the result buffer holding anything, runs to its end leaving
    the inputs as they were and the result buffer at `out2_8` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S128x128 .f32) (x3 : Vec F S1x128 .f32) (x4 : Vec F S128x256 .f32) (x5 : Vec F S1x256 .f32) (x6 : Vec F S256x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-- What the pipeline's bookkeeping records for this call on core `c`: the operand arrays as the call finds them; after the
    body at point `t`, each input buffer at its block and the result buffer at `out2_8` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is started with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any grid point: the input buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's requirement on the body, at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The whole run of the program: seven states of the device's arrays — at launch, after each of the three stretches of
  host operations, and after each of the three kernel calls — each obtained from the one before. A stretch of host
  operations changes the arrays it writes as the operations say; a kernel call changes only its result array, which ends
  holding what the call's grid points wrote back, block by block. Every fair execution of the program terminates without
  a fault in a state whose arrays are the seventh state; the eighteen argument arrays are never written, so they end as
  launched.
-/
import proofs.«131460_j31344671326721_2_alg».proof.Proof.K.Reg0
import proofs.«131460_j31344671326721_2_alg».proof.Proof.K.Reg1
import proofs.«131460_j31344671326721_2_alg».proof.Proof.K.Reg2
import proofs.«131460_j31344671326721_2_alg».proof.Proof.K.RegionsP

set_option maxRecDepth 16384

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at each boundary -/

/-- Core `c`'s arrays at launch. -/
abbrev W0 : Dev nD → Valuation τ sig (Elt F) := fun c b => (s₀ m ρ).mem ((c : Dev nD), b)
/-- After the host operations before call 0. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After call 0: its operand arrays at what the pipeline leaves in them, every other array as before the call. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input operand's array is not changed by the call. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
/-- Only the result array `main_v7` is changed by call 0. -/
theorem W2_keep (c : Dev nD) (r : Ref sig .tc) (h : r ≠ main_v7) : W2 m ρ c (Proc.devRef .tc r) = W1 m ρ c (Proc.devRef .tc r) := by
  by_cases hx : ∃ w : Fin cfg0.W, Pipeline.arrRef spec0 w = r
  · obtain ⟨w, rfl⟩ := hx
    refine W2_in m ρ c w ?_
    revert h; revert w; decide
  · exact W2_of_ne m ρ c r fun w e => hx ⟨w, e⟩
/-- A host operation changes only the array it writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host operations before call 1. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After call 1: its operand arrays at what the pipeline leaves in them, every other array as before the call. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input operand's array is not changed by the call. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
/-- Only the result array `main_v12` is changed by call 1. -/
theorem W4_keep (c : Dev nD) (r : Ref sig .tc) (h : r ≠ main_v12) : W4 m ρ c (Proc.devRef .tc r) = W3 m ρ c (Proc.devRef .tc r) := by
  by_cases hx : ∃ w : Fin cfg1.W, Pipeline.arrRef spec1 w = r
  · obtain ⟨w, rfl⟩ := hx
    refine W4_in m ρ c w ?_
    revert h; revert w; decide
  · exact W4_of_ne m ρ c r fun w e => hx ⟨w, e⟩
/-- A host operation changes only the array it writes. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After the host operations before call 2. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- After call 2: its operand arrays at what the pipeline leaves in them, every other array as before the call. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- An input operand's array is not changed by the call. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))
/-- Only the result array `main_v55` is changed by call 2. -/
theorem W6_keep (c : Dev nD) (r : Ref sig .tc) (h : r ≠ main_v55) : W6 m ρ c (Proc.devRef .tc r) = W5 m ρ c (Proc.devRef .tc r) := by
  by_cases hx : ∃ w : Fin cfg2.W, Pipeline.arrRef spec2 w = r
  · obtain ⟨w, rfl⟩ := hx
    refine W6_in m ρ c w ?_
    revert h; revert w; decide
  · exact W6_of_ne m ρ c r fun w e => hx ⟨w, e⟩
/-- A host operation changes only the array it writes. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- An array that no host operation writes and that is no call's result ends as launched. -/
theorem W6_arg (c : Dev nD) (r : Ref sig .tc) (h0 : r ∉ hostOps0_W) (h1 : r ≠ main_v7) (h2 : r ∉ hostOps1_W) (h3 : r ≠ main_v12)
    (h4 : r ∉ hostOps2_W) (h5 : r ≠ main_v55) : W6 m ρ c (Proc.devRef .tc r) = m ((c : Thread nD τ).loc r) :=
  (W6_keep m ρ c r h5).trans <| (W5_of m ρ c r h4).trans <| (W4_keep m ρ c r h3).trans <| (W3_of m ρ c r h2).trans <|
    (W2_keep m ρ c r h1).trans <| (W1_of m ρ c r h0).trans rfl

/-! ## The proof data of the three pipelines, and what rides beside the arrays -/

abbrev padm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev L : GSem nD τ sig → Finset Unit := fun _ => ∅
abbrev lv : GSem nD τ sig → Unit → ℕ := fun _ _ => 0
/-- Beside the arrays: the core's random-generator register at some state, and nothing owed to another core. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The kernel calls as segments of the run -/

set_option backward.isDefEq.respectTransparency.types false in
/-- Call 0: entered with every array at `W1`, left with every array at `W2`. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with every array at `W3`, left with every array at `W4`. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered with every array at `W5`, left with every array at `W6`. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the run -/

abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option backward.isDefEq.respectTransparency.types false in
/-- Every fair execution of the program from memory `m` terminates, faulting nowhere, in a state whose every array is
    the last boundary's. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) padm (pdats m ρ) () cellOf_inj emb₁ defs₀ 𝒱₀ L lv m ρ main (psegs m ρ)
    (fun c Q => by
      rewrite [main_chain c, Pipeline.Seg.run_eq_chain,
        show (psegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the program runs to its end and the eighteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide)),
     (h c _ (mem_uc main_arg5 (by decide))).trans (W6_arg m ρ c main_arg5 (by decide) (by decide) (by decide) (by decide) (by decide) (by decide)),
     (h c _ (mem_uc main_arg6 (by decide))).trans (W6_arg m ρ c main_arg6 (by decide) (by decide) (by decide) (by decide) (by decide) (by decide)),
     (h c _ (mem_uc main_arg7 (by decide))).trans (W6_arg m ρ c main_arg7 (by decide) (by decide) (by decide) (by decide) (by decide) (by decide)),
     (h c _ (mem_uc main_arg8 (by decide))).trans (W6_arg m ρ c main_arg8 (by decide) (by decide) (by decide) (by decide) (by decide) (by decide)),
     (h c _ (mem_uc main_arg9 (by decide))).trans (W6_arg m ρ c main_arg9 (by decide) (by decide) (by decide) (by decide) (by decide) (by decide)),
     (h c _ (mem_uc main_arg10 (by decide))).trans (W6_arg m ρ c main_arg10 (by decide) (by decide) (by decide) (by decide) (by decide) (by decide)),
     (h c _ (mem_uc main_arg11 (by decide))).trans (W6_arg m ρ c main_arg11 (by decide) (by decide) (by decide) (by decide) (by decide) (by decide)),
     (h c _ (mem_uc main_arg12 (by decide))).trans (W6_arg m ρ c main_arg12 (by decide) (by decide) (by decide) (by decide) (by decide) (by decide)),
     (h c _ (mem_uc main_arg13 (by decide))).trans (W6_arg m ρ c main_arg13 (by decide) (by decide) (by decide) (by decide) (by decide) (by decide)),
     (h c _ (mem_uc main_arg14 (by decide))).trans (W6_arg m ρ c main_arg14 (by decide) (by decide) (by decide) (by decide) (by decide) (by decide)),
     (h c _ (mem_uc main_arg15 (by decide))).trans (W6_arg m ρ c main_arg15 (by decide) (by decide) (by decide) (by decide) (by decide) (by decide)),
     (h c _ (mem_uc main_arg16 (by decide))).trans (W6_arg m ρ c main_arg16 (by decide) (by decide) (by decide) (by decide) (by decide) (by decide)),
     (h c _ (mem_uc main_arg17 (by decide))).trans (W6_arg m ρ c main_arg17 (by decide) (by decide) (by decide) (by decide) (by decide) (by decide))⟩)
    (run_all m ρ)

end Cert.Kernel.Fr

end
-- ==== Proof.KI.Reg0.lean ====
/-
  The first projection call, one grid point at a time. Each of its 25 grid points takes a block of 2000 rows of the node
  features, the whole 128×384 weight matrix (the three 128×128 weight matrices side by side) and the 1×384 bias row, and
  writes the 2000×384 block  rows · weights + bias.  This module states what one run of the body leaves in the result
  buffer as a function of the three input blocks, proves that the body does leave it, and packages that as the
  pipeline's requirement on the body at every grid point. Nothing here depends on the float semantics.
-/
import proofs.«131460_j31344671326721_2_alg».proof.Proof.KI.LaunchP
import proofs.«131460_j31344671326721_2_alg».proof.Proof.Gen.KernelIdeal.Skeleton
import proofs.«131460_j31344671326721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` that grid point `t` works on, cut out of the operand's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's staging buffer holds its block at every grid point, whether or not the block was copied in at that
    point: when it was not, the block's position has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input operand 1's staging buffer holds its block at every grid point, whether or not the block was copied in at that
    point: when it was not, the block's position has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input operand 2's staging buffer holds its block at every grid point, whether or not the block was copied in at that
    point: when it was not, the block's position has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads each staging buffer whole and writes the result buffer whole. -/

abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- The result buffer after the body, as a function of the input blocks: the body's one store, covering the whole buffer. -/
def out0_3 (x0 : Vec F S2000x128 .f32) (x1 : Vec F S128x384 .f32) (x2 : Vec F S1x384 .f32) : Vec F S2000x384 .f32 :=
  View.canon [⟨r0_3, k0_pay1 (View.ld x0 r0_0) (View.ld x1 r0_1) (View.ld x2 r0_2)⟩]

/-- The one store covers the buffer. -/
theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

set_option maxHeartbeats 4000000 in
/-- The body, started with the input buffers holding `x…` and the result buffer holding anything, runs to its end leaving
    the inputs as they were and the result buffer at `out0_3` of them. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the pipeline's bookkeeping records for this call on core `c`: the operand arrays as the call finds them; after the
    body at point `t`, each input buffer at its block and the result buffer at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is started with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's requirement on the body, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  The edge projection call, one grid point at a time. Each of its 80 grid points takes a block of 8000 rows of the edge
  features, the whole 128×128 weight matrix and the 1×128 bias row, and writes the 8000×128 block
  rows · weights + bias.  This module states what one run of the body leaves in the result buffer as a function of the
  three input blocks, proves that the body does leave it, and packages that as the pipeline's requirement on the body at
  every grid point. Nothing here depends on the float semantics.
-/
import proofs.«131460_j31344671326721_2_alg».proof.Proof.KI.LaunchP
import proofs.«131460_j31344671326721_2_alg».proof.Proof.Gen.KernelIdeal.Skeleton
import proofs.«131460_j31344671326721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` that grid point `t` works on, cut out of the operand's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's staging buffer holds its block at every grid point, whether or not the block was copied in at that
    point: when it was not, the block's position has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input operand 1's staging buffer holds its block at every grid point, whether or not the block was copied in at that
    point: when it was not, the block's position has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input operand 2's staging buffer holds its block at every grid point, whether or not the block was copied in at that
    point: when it was not, the block's position has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body reads each staging buffer whole and writes the result buffer whole. -/

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S8000x128 := Rect.unit (s := S8000x128) ![0, 0] S8000x128.size inb_S8000x128_S8000x128_0_0

/-- The result buffer after the body, as a function of the input blocks: the body's one store, covering the whole buffer. -/
def out1_3 (x0 : Vec F S8000x128 .f32) (x1 : Vec F S128x128 .f32) (x2 : Vec F S1x128 .f32) : Vec F S8000x128 .f32 :=
  View.canon [⟨r1_3, k1_pay1 (View.ld x0 r1_0) (View.ld x1 r1_1) (View.ld x2 r1_2)⟩]

/-- The one store covers the buffer. -/
theorem cover1_3 (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

set_option maxHeartbeats 4000000 in
/-- The body, started with the input buffers holding `x…` and the result buffer holding anything, runs to its end leaving
    the inputs as they were and the result buffer at `out1_3` of them. -/
theorem sound_kernel1 (c : Dev nD) (E : Set ℕ) (i : grid1.Coords) (arg1 : Memref sig .tc .vmem S8000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S8000x128 .f32) (harg4 : arg4.IsWhole)
    (x0 : Vec F S8000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the pipeline's bookkeeping records for this call on core `c`: the operand arrays as the call finds them; after the
    body at point `t`, each input buffer at its block and the result buffer at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is started with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's requirement on the body, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The node update call, one grid point at a time. Each of its 25 grid points takes a block of 2000 rows of the node
  features x and of the aggregated messages a, and the whole weights and bias rows of three dense layers, and writes
  the 2000×128 block  y + (max(y·W1 + b1, 0)·W2 + b2)  where  y = x + max(x·WA + bA + a, 0).  This module states what one
  run of the body leaves in the result buffer as a function of the eight input blocks, proves that the body does leave
  it, and packages that as the pipeline's requirement on the body at every grid point. Nothing here depends on the float
  semantics.
-/
import proofs.«131460_j31344671326721_2_alg».proof.Proof.KI.LaunchP
import proofs.«131460_j31344671326721_2_alg».proof.Proof.Gen.KernelIdeal.Skeleton
import proofs.«131460_j31344671326721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` that grid point `t` works on, cut out of the operand's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input operand 0's staging buffer holds its block at every grid point, whether or not the block was copied in at that
    point: when it was not, the block's position has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input operand 1's staging buffer holds its block at every grid point, whether or not the block was copied in at that
    point: when it was not, the block's position has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input operand 2's staging buffer holds its block at every grid point, whether or not the block was copied in at that
    point: when it was not, the block's position has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input operand 3's staging buffer holds its block at every grid point, whether or not the block was copied in at that
    point: when it was not, the block's position has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input operand 4's staging buffer holds its block at every grid point, whether or not the block was copied in at that
    point: when it was not, the block's position has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input operand 5's staging buffer holds its block at every grid point, whether or not the block was copied in at that
    point: when it was not, the block's position has not moved since the point before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input operand 6's staging buffer holds its block at every grid point, whether or not the block was copied in at that
    point: when it was not, the block's position has not moved since the point before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input operand 7's staging buffer holds its block at every grid point, whether or not the block was copied in at that
    point: when it was not, the block's position has not moved since the point before. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! The body reads each staging buffer whole and writes the result buffer whole. -/

abbrev r2_0 : Rect S2000x128 := Rect.unit (s := S2000x128) ![0, 0] S2000x128.size inb_S2000x128_S2000x128_0_0
abbrev r2_1 : Rect S2000x128 := Rect.unit (s := S2000x128) ![0, 0] S2000x128.size inb_S2000x128_S2000x128_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0
abbrev r2_4 : Rect S128x256 := Rect.unit (s := S128x256) ![0, 0] S128x256.size inb_S128x256_S128x256_0_0
abbrev r2_5 : Rect S1x256 := Rect.unit (s := S1x256) ![0, 0] S1x256.size inb_S1x256_S1x256_0_0
abbrev r2_6 : Rect S256x128 := Rect.unit (s := S256x128) ![0, 0] S256x128.size inb_S256x128_S256x128_0_0
abbrev r2_7 : Rect S1x128 := Rect.unit (s := S1x128) ![0, 0] S1x128.size inb_S1x128_S1x128_0_0
abbrev r2_8 : Rect S2000x128 := Rect.unit (s := S2000x128) ![0, 0] S2000x128.size inb_S2000x128_S2000x128_0_0

/-- The result buffer after the body, as a function of the input blocks: the body's one store, covering the whole buffer. -/
def out2_8 (x0 : Vec F S2000x128 .f32) (x1 : Vec F S2000x128 .f32) (x2 : Vec F S128x128 .f32) (x3 : Vec F S1x128 .f32) (x4 : Vec F S128x256 .f32) (x5 : Vec F S1x256 .f32) (x6 : Vec F S256x128 .f32) (x7 : Vec F S1x128 .f32) : Vec F S2000x128 .f32 :=
  View.canon [⟨r2_8, k2_pay1 (View.ld x0 r2_0) (View.ld x2 r2_2) (View.ld x3 r2_3) (View.ld x1 r2_1) (View.ld x4 r2_4) (View.ld x5 r2_5) (View.ld x6 r2_6) (View.ld x7 r2_7)⟩]

/-- The one store covers the buffer. -/
theorem cover2_8 (p0 : Vec F S2000x128 .f32) (y : S2000x128.Idx) :
    ∃ pc ∈ ([⟨r2_8, p0⟩] : List (View.Piece (Elt F) S2000x128 .f32)), y ∈ pc.1.set :=
  View.cover_of_tiled [⟨r2_8, p0⟩] S2000x128.size (by rfl) y

set_option maxHeartbeats 4000000 in
/-- The body, started with the input buffers holding `x…` and the result buffer holding anything, runs to its end leaving
    the inputs as they were and the result buffer at `out2_8` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S128x128 .f32) (x3 : Vec F S1x128 .f32) (x4 : Vec F S128x256 .f32) (x5 : Vec F S1x256 .f32) (x6 : Vec F S256x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-- What the pipeline's bookkeeping records for this call on core `c`: the operand arrays as the call finds them; after the
    body at point `t`, each input buffer at its block and the result buffer at `out2_8` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is started with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any grid point: the input buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's requirement on the body, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole run of the program: seven states of the device's arrays — at launch, after each of the three stretches of
  host operations, and after each of the three kernel calls — each obtained from the one before. A stretch of host
  operations changes the arrays it writes as the operations say; a kernel call changes only its result array, which ends
  holding what the call's grid points wrote back, block by block. Every fair execution of the program terminates without
  a fault in a state whose arrays are the seventh state; the eighteen argument arrays are never written, so they end as
  launched.
-/
import proofs.«131460_j31344671326721_2_alg».proof.Proof.KI.Reg0
import proofs.«131460_j31344671326721_2_alg».proof.Proof.KI.Reg1
import proofs.«131460_j31344671326721_2_alg».proof.Proof.KI.Reg2
import proofs.«131460_j31344671326721_2_alg».proof.Proof.KI.RegionsP

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at each boundary -/

/-- Core `c`'s arrays at launch. -/
abbrev W0 : Dev nD → Valuation τ sig (Elt F) := fun c b => (s₀ m ρ).mem ((c : Dev nD), b)
/-- After the host operations before call 0. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After call 0: its operand arrays at what the pipeline leaves in them, every other array as before the call. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input operand's array is not changed by the call. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
/-- Only the result array `main_v7` is changed by call 0. -/
theorem W2_keep (c : Dev nD) (r : Ref sig .tc) (h : r ≠ main_v7) : W2 m ρ c (Proc.devRef .tc r) = W1 m ρ c (Proc.devRef .tc r) := by
  by_cases hx : ∃ w : Fin cfg0.W, Pipeline.arrRef spec0 w = r
  · obtain ⟨w, rfl⟩ := hx
    refine W2_in m ρ c w ?_
    revert h; revert w; decide
  · exact W2_of_ne m ρ c r fun w e => hx ⟨w, e⟩
/-- A host operation changes only the array it writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host operations before call 1. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After call 1: its operand arrays at what the pipeline leaves in them, every other array as before the call. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input operand's array is not changed by the call. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))
/-- Only the result array `main_v12` is changed by call 1. -/
theorem W4_keep (c : Dev nD) (r : Ref sig .tc) (h : r ≠ main_v12) : W4 m ρ c (Proc.devRef .tc r) = W3 m ρ c (Proc.devRef .tc r) := by
  by_cases hx : ∃ w : Fin cfg1.W, Pipeline.arrRef spec1 w = r
  · obtain ⟨w, rfl⟩ := hx
    refine W4_in m ρ c w ?_
    revert h; revert w; decide
  · exact W4_of_ne m ρ c r fun w e => hx ⟨w, e⟩
/-- A host operation changes only the array it writes. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After the host operations before call 2. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- After call 2: its operand arrays at what the pipeline leaves in them, every other array as before the call. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- An input operand's array is not changed by the call. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))
/-- Only the result array `main_v55` is changed by call 2. -/
theorem W6_keep (c : Dev nD) (r : Ref sig .tc) (h : r ≠ main_v55) : W6 m ρ c (Proc.devRef .tc r) = W5 m ρ c (Proc.devRef .tc r) := by
  by_cases hx : ∃ w : Fin cfg2.W, Pipeline.arrRef spec2 w = r
  · obtain ⟨w, rfl⟩ := hx
    refine W6_in m ρ c w ?_
    revert h; revert w; decide
  · exact W6_of_ne m ρ c r fun w e => hx ⟨w, e⟩
/-- A host operation changes only the array it writes. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- An array that no host operation writes and that is no call's result ends as launched. -/
theorem W6_arg (c : Dev nD) (r : Ref sig .tc) (h0 : r ∉ hostOps0_W) (h1 : r ≠ main_v7) (h2 : r ∉ hostOps1_W) (h3 : r ≠ main_v12)
    (h4 : r ∉ hostOps2_W) (h5 : r ≠ main_v55) : W6 m ρ c (Proc.devRef .tc r) = m ((c : Thread nD τ).loc r) :=
  (W6_keep m ρ c r h5).trans <| (W5_of m ρ c r h4).trans <| (W4_keep m ρ c r h3).trans <| (W3_of m ρ c r h2).trans <|
    (W2_keep m ρ c r h1).trans <| (W1_of m ρ c r h0).trans rfl

/-! ## The proof data of the three pipelines, and what rides beside the arrays -/

abbrev padm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev L : GSem nD τ sig → Finset Unit := fun _ => ∅
abbrev lv : GSem nD τ sig → Unit → ℕ := fun _ _ => 0
/-- Beside the arrays: the core's random-generator register at some state, and nothing owed to another core. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The kernel calls as segments of the run -/

set_option backward.isDefEq.respectTransparency.types false in
/-- Call 0: entered with every array at `W1`, left with every array at `W2`. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with every array at `W3`, left with every array at `W4`. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered with every array at `W5`, left with every array at `W6`. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the run -/

abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option backward.isDefEq.respectTransparency.types false in
/-- Every fair execution of the program from memory `m` terminates, faulting nowhere, in a state whose every array is
    the last boundary's. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) padm (pdats m ρ) () cellOf_inj emb₁ defs₀ 𝒱₀ L lv m ρ main (psegs m ρ)
    (fun c Q => by
      rewrite [main_chain c, Pipeline.Seg.run_eq_chain,
        show (psegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the program runs to its end and the eighteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide)),
     (h c _ (mem_uc main_arg5 (by decide))).trans (W6_arg m ρ c main_arg5 (by decide) (by decide) (by decide) (by decide) (by decide) (by decide)),
     (h c _ (mem_uc main_arg6 (by decide))).trans (W6_arg m ρ c main_arg6 (by decide) (by decide) (by decide) (by decide) (by decide) (by decide)),
     (h c _ (mem_uc main_arg7 (by decide))).trans (W6_arg m ρ c main_arg7 (by decide) (by decide) (by decide) (by decide) (by decide) (by decide)),
     (h c _ (mem_uc main_arg8 (by decide))).trans (W6_arg m ρ c main_arg8 (by decide) (by decide) (by decide) (by decide) (by decide) (by decide)),
     (h c _ (mem_uc main_arg9 (by decide))).trans (W6_arg m ρ c main_arg9 (by decide) (by decide) (by decide) (by decide) (by decide) (by decide)),
     (h c _ (mem_uc main_arg10 (by decide))).trans (W6_arg m ρ c main_arg10 (by decide) (by decide) (by decide) (by decide) (by decide) (by decide)),
     (h c _ (mem_uc main_arg11 (by decide))).trans (W6_arg m ρ c main_arg11 (by decide) (by decide) (by decide) (by decide) (by decide) (by decide)),
     (h c _ (mem_uc main_arg12 (by decide))).trans (W6_arg m ρ c main_arg12 (by decide) (by decide) (by decide) (by decide) (by decide) (by decide)),
     (h c _ (mem_uc main_arg13 (by decide))).trans (W6_arg m ρ c main_arg13 (by decide) (by decide) (by decide) (by decide) (by decide) (by decide)),
     (h c _ (mem_uc main_arg14 (by decide))).trans (W6_arg m ρ c main_arg14 (by decide) (by decide) (by decide) (by decide) (by decide) (by decide)),
     (h c _ (mem_uc main_arg15 (by decide))).trans (W6_arg m ρ c main_arg15 (by decide) (by decide) (by decide) (by decide) (by decide) (by decide)),
     (h c _ (mem_uc main_arg16 (by decide))).trans (W6_arg m ρ c main_arg16 (by decide) (by decide) (by decide) (by decide) (by decide) (by decide)),
     (h c _ (mem_uc main_arg17 (by decide))).trans (W6_arg m ρ c main_arg17 (by decide) (by decide) (by decide) (by decide) (by decide) (by decide))⟩)
    (run_all m ρ)

end Cert.KernelIdeal.Fr

end
-- ==== Proof.LibConcat3.lean ====
/-
  Three arrays laid side by side, read at an index. Three matrices with the same number of rows placed side by side
  along the column axis form one wide matrix whose entry in column q is, according to which third q falls in, the entry of
  the first, second or third matrix in the column counted from that third's start; three vectors laid end to end form one
  long vector in the same way.
-/
import Idealize.ShloMosaic.Lib.Pipeline.Value
import Idealize.ShloMosaic.Lib.ValueIdx

namespace Cert.LibConcat3

open Idealize.ShloMosaic Idealize.ShloMosaic.ValueIdx

variable {α : Type}

/-- Three matrices `[n, a]`, `[n, b]`, `[n, c]` side by side: a column in the first range reads the first matrix. -/
theorem cols_first {n a b c : ℕ} (x : (⟨2, ![n, a]⟩ : Shape).Idx → α) (y : (⟨2, ![n, b]⟩ : Shape).Idx → α) (z : (⟨2, ![n, c]⟩ : Shape).Idx → α)
    (h : Shape.Concatenates (([⟨⟨2, ![n, a]⟩, x⟩, ⟨⟨2, ![n, b]⟩, y⟩, ⟨⟨2, ![n, c]⟩, z⟩] : List ((s : Shape) × (s.Idx → α))).map (·.1)) ⟨2, ![n, a + b + c]⟩ 1)
    (r : Fin n) (q : Fin a) (hq : q.val < a + b + c) :
    concatenate ⟨2, ![n, a + b + c]⟩ 1 [⟨⟨2, ![n, a]⟩, x⟩, ⟨⟨2, ![n, b]⟩, y⟩, ⟨⟨2, ![n, c]⟩, z⟩] h (ix2 r ⟨q.val, hq⟩) = x (ix2 r q) :=
  concatenate_apply_piece 1 _ h _ 0 (by simp) _ x rfl rfl 0 rfl (ix2 r q)
    (fun d hd => by
      match d with
      | ⟨0, _⟩ => rfl
      | ⟨1, _⟩ => exact absurd rfl hd)
    (Nat.zero_add _)

/-- A column in the second range reads the second matrix. -/
theorem cols_second {n a b c : ℕ} (x : (⟨2, ![n, a]⟩ : Shape).Idx → α) (y : (⟨2, ![n, b]⟩ : Shape).Idx → α) (z : (⟨2, ![n, c]⟩ : Shape).Idx → α)
    (h : Shape.Concatenates (([⟨⟨2, ![n, a]⟩, x⟩, ⟨⟨2, ![n, b]⟩, y⟩, ⟨⟨2, ![n, c]⟩, z⟩] : List ((s : Shape) × (s.Idx → α))).map (·.1)) ⟨2, ![n, a + b + c]⟩ 1)
    (r : Fin n) (q : Fin b) (hq : a + q.val < a + b + c) :
    concatenate ⟨2, ![n, a + b + c]⟩ 1 [⟨⟨2, ![n, a]⟩, x⟩, ⟨⟨2, ![n, b]⟩, y⟩, ⟨⟨2, ![n, c]⟩, z⟩] h (ix2 r ⟨a + q.val, hq⟩) = y (ix2 r q) :=
  concatenate_apply_piece 1 _ h _ 1 (by simp) _ y rfl rfl a (by simp) (ix2 r q)
    (fun d hd => by
      match d with
      | ⟨0, _⟩ => rfl
      | ⟨1, _⟩ => exact absurd rfl hd)
    rfl

/-- A column in the third range reads the third matrix. -/
theorem cols_third {n a b c : ℕ} (x : (⟨2, ![n, a]⟩ : Shape).Idx → α) (y : (⟨2, ![n, b]⟩ : Shape).Idx → α) (z : (⟨2, ![n, c]⟩ : Shape).Idx → α)
    (h : Shape.Concatenates (([⟨⟨2, ![n, a]⟩, x⟩, ⟨⟨2, ![n, b]⟩, y⟩, ⟨⟨2, ![n, c]⟩, z⟩] : List ((s : Shape) × (s.Idx → α))).map (·.1)) ⟨2, ![n, a + b + c]⟩ 1)
    (r : Fin n) (q : Fin c) (hq : a + b + q.val < a + b + c) :
    concatenate ⟨2, ![n, a + b + c]⟩ 1 [⟨⟨2, ![n, a]⟩, x⟩, ⟨⟨2, ![n, b]⟩, y⟩, ⟨⟨2, ![n, c]⟩, z⟩] h (ix2 r ⟨a + b + q.val, hq⟩) = z (ix2 r q) :=
  concatenate_apply_piece 1 _ h _ 2 (by simp) _ z rfl rfl (a + b) (by simp) (ix2 r q)
    (fun d hd => by
      match d with
      | ⟨0, _⟩ => rfl
      | ⟨1, _⟩ => exact absurd rfl hd)
    rfl

/-- Three vectors `[a]`, `[b]`, `[c]` end to end: a position in the first range reads the first vector. -/
theorem vec_first {a b c : ℕ} (x : (⟨1, ![a]⟩ : Shape).Idx → α) (y : (⟨1, ![b]⟩ : Shape).Idx → α) (z : (⟨1, ![c]⟩ : Shape).Idx → α)
    (h : Shape.Concatenates (([⟨⟨1, ![a]⟩, x⟩, ⟨⟨1, ![b]⟩, y⟩, ⟨⟨1, ![c]⟩, z⟩] : List ((s : Shape) × (s.Idx → α))).map (·.1)) ⟨1, ![a + b + c]⟩ 0)
    (q : Fin a) (hq : q.val < a + b + c) :
    concatenate ⟨1, ![a + b + c]⟩ 0 [⟨⟨1, ![a]⟩, x⟩, ⟨⟨1, ![b]⟩, y⟩, ⟨⟨1, ![c]⟩, z⟩] h (ix1 ⟨q.val, hq⟩) = x (ix1 q) :=
  concatenate_apply_piece 0 _ h _ 0 (by simp) _ x rfl rfl 0 rfl (ix1 q)
    (fun d hd => by
      match d with
      | ⟨0, _⟩ => exact absurd rfl hd)
    (Nat.zero_add _)

/-- A position in the second range reads the second vector. -/
theorem vec_second {a b c : ℕ} (x : (⟨1, ![a]⟩ : Shape).Idx → α) (y : (⟨1, ![b]⟩ : Shape).Idx → α) (z : (⟨1, ![c]⟩ : Shape).Idx → α)
    (h : Shape.Concatenates (([⟨⟨1, ![a]⟩, x⟩, ⟨⟨1, ![b]⟩, y⟩, ⟨⟨1, ![c]⟩, z⟩] : List ((s : Shape) × (s.Idx → α))).map (·.1)) ⟨1, ![a + b + c]⟩ 0)
    (q : Fin b) (hq : a + q.val < a + b + c) :
    concatenate ⟨1, ![a + b + c]⟩ 0 [⟨⟨1, ![a]⟩, x⟩, ⟨⟨1, ![b]⟩, y⟩, ⟨⟨1, ![c]⟩, z⟩] h (ix1 ⟨a + q.val, hq⟩) = y (ix1 q) :=
  concatenate_apply_piece 0 _ h _ 1 (by simp) _ y rfl rfl a (by simp) (ix1 q)
    (fun d hd => by
      match d with
      | ⟨0, _⟩ => exact absurd rfl hd)
    rfl

/-- A position in the third range reads the third vector. -/
theorem vec_third {a b c : ℕ} (x : (⟨1, ![a]⟩ : Shape).Idx → α) (y : (⟨1, ![b]⟩ : Shape).Idx → α) (z : (⟨1, ![c]⟩ : Shape).Idx → α)
    (h : Shape.Concatenates (([⟨⟨1, ![a]⟩, x⟩, ⟨⟨1, ![b]⟩, y⟩, ⟨⟨1, ![c]⟩, z⟩] : List ((s : Shape) × (s.Idx → α))).map (·.1)) ⟨1, ![a + b + c]⟩ 0)
    (q : Fin c) (hq : a + b + q.val < a + b + c) :
    concatenate ⟨1, ![a + b + c]⟩ 0 [⟨⟨1, ![a]⟩, x⟩, ⟨⟨1, ![b]⟩, y⟩, ⟨⟨1, ![c]⟩, z⟩] h (ix1 ⟨a + b + q.val, hq⟩) = z (ix1 q) :=
  concatenate_apply_piece 0 _ h _ 2 (by simp) _ z rfl rfl (a + b) (by simp) (ix1 q)
    (fun d hd => by
      match d with
      | ⟨0, _⟩ => exact absurd rfl hd)
    rfl

end Cert.LibConcat3
-- ==== Proof.KI.HostA.lean ====
/-
  The host operations between the kernel calls, read one result at a time from the arrays they start from.
  Before the first call: the two rows of the edge list, the three weight matrices laid side by side into one 128×384
  matrix, and the three bias vectors laid end to end into one 1×384 row. Before the second call: the first call's
  50000×384 result cut into its three 50000×128 column ranges, and a bias vector as a 1×128 row. Before the third call:
  the whole edge computation — rows gathered at the edge ends, the gate, the messages scattered and added per node, and
  the new edge features — which is operation for operation the reference's own, so it is carried as the reference's
  stages applied to the projections; and three bias vectors as rows.
-/
import proofs.«131460_j31344671326721_2_alg».proof.Proof.KI.LaunchP
import proofs.«131460_j31344671326721_2_alg».proof.Proof.LibConcat3
import proofs.«131460_j31344671326721_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable {F : FTy → Type} [FloatOps F]
variable (W : Valuation τ sig (Elt F))

/-! ## Before the first call -/

/-- The source row of the edge list. -/
theorem h0_v1 : StableHlo.after hostOps0 W (Proc.devRef .tc main_v1) = Cert.ReferenceIdeal.Read.val_main_v21 (F := F) (W main_arg17) := by
  after_results; rfl

/-- The target row of the edge list. -/
theorem h0_v3 : StableHlo.after hostOps0 W (Proc.devRef .tc main_v3) = Cert.ReferenceIdeal.Read.val_main_v23 (F := F) (W main_arg17) := by
  after_results; rfl

/-- The three weight matrices side by side. -/
theorem h0_v4 : StableHlo.after hostOps0 W (Proc.devRef .tc main_v4)
    = concatenate S128x384 1 [⟨S128x128, W main_arg5⟩, ⟨S128x128, W main_arg9⟩, ⟨S128x128, W main_arg11⟩] concatenates_S128x128_S128x128_S128x128_S128x384_d1 := by
  after_results; rfl

/-- The three bias vectors end to end, as one row. -/
theorem h0_v6 : StableHlo.after hostOps0 W (Proc.devRef .tc main_v6)
    = shapeCast S1x384 (concatenate S384 0 [⟨S128, W main_arg6⟩, ⟨S128, W main_arg10⟩, ⟨S128, W main_arg12⟩] concatenates_S128_S128_S128_S384_d0) shapeCasts_S384_S1x384 := by
  after_results; rfl

/-- An entry of the wide weight matrix, by the third its column falls in. -/
theorem h0_v4_first (k : Fin 128) (q : Fin 128) :
    (StableHlo.after hostOps0 W (Proc.devRef .tc main_v4) : S128x384.Idx → Elt F .f32) (ix2 k ⟨q.val, by omega⟩) = (W main_arg5 : S128x128.Idx → Elt F .f32) (ix2 k q) := by
  rw [h0_v4]; exact Cert.LibConcat3.cols_first (n := 128) (a := 128) (b := 128) (c := 128) _ _ _ _ k q _
theorem h0_v4_second (k : Fin 128) (q : Fin 128) :
    (StableHlo.after hostOps0 W (Proc.devRef .tc main_v4) : S128x384.Idx → Elt F .f32) (ix2 k ⟨128 + q.val, by omega⟩) = (W main_arg9 : S128x128.Idx → Elt F .f32) (ix2 k q) := by
  rw [h0_v4]; exact Cert.LibConcat3.cols_second (n := 128) (a := 128) (b := 128) (c := 128) _ _ _ _ k q _
theorem h0_v4_third (k : Fin 128) (q : Fin 128) :
    (StableHlo.after hostOps0 W (Proc.devRef .tc main_v4) : S128x384.Idx → Elt F .f32) (ix2 k ⟨128 + 128 + q.val, by omega⟩) = (W main_arg11 : S128x128.Idx → Elt F .f32) (ix2 k q) := by
  rw [h0_v4]; exact Cert.LibConcat3.cols_third (n := 128) (a := 128) (b := 128) (c := 128) _ _ _ _ k q _

/-- An entry of the long bias row, by the third its position falls in. -/
theorem h0_v6_first (q : Fin 128) :
    (StableHlo.after hostOps0 W (Proc.devRef .tc main_v6) : S1x384.Idx → Elt F .f32) (ix2 (0 : Fin 1) ⟨q.val, by omega⟩) = (W main_arg6 : S128.Idx → Elt F .f32) (ix1 q) := by
  rw [h0_v6]
  refine (shapeCast_a_1a_apply (a := 384) _ _ (0 : Fin 1) ⟨q.val, by omega⟩).trans ?_
  exact Cert.LibConcat3.vec_first (a := 128) (b := 128) (c := 128) _ _ _ _ q _
theorem h0_v6_second (q : Fin 128) :
    (StableHlo.after hostOps0 W (Proc.devRef .tc main_v6) : S1x384.Idx → Elt F .f32) (ix2 (0 : Fin 1) ⟨128 + q.val, by omega⟩) = (W main_arg10 : S128.Idx → Elt F .f32) (ix1 q) := by
  rw [h0_v6]
  refine (shapeCast_a_1a_apply (a := 384) _ _ (0 : Fin 1) ⟨128 + q.val, by omega⟩).trans ?_
  exact Cert.LibConcat3.vec_second (a := 128) (b := 128) (c := 128) _ _ _ _ q _
theorem h0_v6_third (q : Fin 128) :
    (StableHlo.after hostOps0 W (Proc.devRef .tc main_v6) : S1x384.Idx → Elt F .f32) (ix2 (0 : Fin 1) ⟨128 + 128 + q.val, by omega⟩) = (W main_arg12 : S128.Idx → Elt F .f32) (ix1 q) := by
  rw [h0_v6]
  refine (shapeCast_a_1a_apply (a := 384) _ _ (0 : Fin 1) ⟨128 + 128 + q.val, by omega⟩).trans ?_
  exact Cert.LibConcat3.vec_third (a := 128) (b := 128) (c := 128) _ _ _ _ q _

/-! ## Before the second call -/

/-- A column range of the first call's result, read at an entry. -/
theorem h1_v8_apply (r : Fin 50000) (q : Fin 128) :
    (StableHlo.after hostOps1 W (Proc.devRef .tc main_v8) : S50000x128.Idx → Elt F .f32) (ix2 r q) = (W main_v7 : S50000x384.Idx → Elt F .f32) (ix2 r ⟨q.val, by omega⟩) := by
  have e : StableHlo.after hostOps1 W (Proc.devRef .tc main_v8) = extractStridedSlice S50000x128 ![0, 0] (W main_v7) slices_S50000x384_S50000x128_0_0 := by
    after_results <;> rfl
  rw [e]
  exact extractStridedSlice_apply _ _ _ _ _ (fun a => by
    match a with
    | ⟨0, _⟩ => exact (Nat.zero_add _).symm
    | ⟨1, _⟩ => exact (Nat.zero_add _).symm)
theorem h1_v9_apply (r : Fin 50000) (q : Fin 128) :
    (StableHlo.after hostOps1 W (Proc.devRef .tc main_v9) : S50000x128.Idx → Elt F .f32) (ix2 r q) = (W main_v7 : S50000x384.Idx → Elt F .f32) (ix2 r ⟨128 + q.val, by omega⟩) := by
  have e : StableHlo.after hostOps1 W (Proc.devRef .tc main_v9) = extractStridedSlice S50000x128 ![0, 128] (W main_v7) slices_S50000x384_S50000x128_0_128 := by
    after_results <;> rfl
  rw [e]
  exact extractStridedSlice_apply _ _ _ _ _ (fun a => by
    match a with
    | ⟨0, _⟩ => exact (Nat.zero_add _).symm
    | ⟨1, _⟩ => rfl)
theorem h1_v10_apply (r : Fin 50000) (q : Fin 128) :
    (StableHlo.after hostOps1 W (Proc.devRef .tc main_v10) : S50000x128.Idx → Elt F .f32) (ix2 r q) = (W main_v7 : S50000x384.Idx → Elt F .f32) (ix2 r ⟨128 + 128 + q.val, by omega⟩) := by
  have e : StableHlo.after hostOps1 W (Proc.devRef .tc main_v10) = extractStridedSlice S50000x128 ![0, 256] (W main_v7) slices_S50000x384_S50000x128_0_256 := by
    after_results <;> rfl
  rw [e]
  exact extractStridedSlice_apply _ _ _ _ _ (fun a => by
    match a with
    | ⟨0, _⟩ => exact (Nat.zero_add _).symm
    | ⟨1, _⟩ => rfl)
/-- A bias vector as a one-row matrix. -/
theorem h1_v11_apply (q : Fin 128) :
    (StableHlo.after hostOps1 W (Proc.devRef .tc main_v11) : S1x128.Idx → Elt F .f32) (ix2 (0 : Fin 1) q) = (W main_arg8 : S128.Idx → Elt F .f32) (ix1 q) := by
  have e : StableHlo.after hostOps1 W (Proc.devRef .tc main_v11) = shapeCast S1x128 (W main_arg8) shapeCasts_S128_S1x128 := by
    after_results <;> rfl
  rw [e]; exact shapeCast_a_1a_apply (a := 128) _ _ (0 : Fin 1) q

/-! ## Before the third call -/

section Edge
variable (x0 : (⟨S50000x128, .f32⟩ : BufTy).Contents (Elt F)) (x1 : (⟨S640000x128, .f32⟩ : BufTy).Contents (Elt F)) (x2 : (⟨S640000, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
  (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x17 : (⟨S2x640000, .i32⟩ : BufTy).Contents (Elt F))

set_option maxHeartbeats 8000000 in
/-- The new edge features: the edge features plus the positive part of (gathered source projection + gathered target
    projection + edge projection) — the reference's own stage, once the four projections and the two index rows going
    in are the reference's. -/
theorem h2_v48 (e1 : (W main_arg1 : (⟨S640000x128, .f32⟩ : BufTy).Contents (Elt F)) = x1)
    (e9 : (W main_v9 : (⟨S50000x128, .f32⟩ : BufTy).Contents (Elt F)) = Cert.ReferenceIdeal.Read.val_main_v15 (F := F) x0 x9 x10)
    (e10 : (W main_v10 : (⟨S50000x128, .f32⟩ : BufTy).Contents (Elt F)) = Cert.ReferenceIdeal.Read.val_main_v19 (F := F) x0 x11 x12)
    (e12 : (W main_v12 : (⟨S640000x128, .f32⟩ : BufTy).Contents (Elt F)) = Cert.ReferenceIdeal.Read.val_main_v11 (F := F) x1 x7 x8)
    (ev1 : (W main_v1 : (⟨S640000, .i32⟩ : BufTy).Contents (Elt F)) = Cert.ReferenceIdeal.Read.val_main_v21 (F := F) x17)
    (ev3 : (W main_v3 : (⟨S640000, .i32⟩ : BufTy).Contents (Elt F)) = Cert.ReferenceIdeal.Read.val_main_v23 (F := F) x17) :
    StableHlo.after hostOps2 W (Proc.devRef .tc main_v48) = Cert.ReferenceIdeal.Read.val_main_v64 (F := F) x0 x1 x7 x8 x9 x10 x11 x12 x17 := by
  after_results_simp
  rw [e1, e9, e10, e12, ev1, ev3]
  rfl

set_option maxHeartbeats 8000000 in
/-- The aggregated messages: per node, the sum over the edges leaving it of weight · gate · gathered target projection —
    again the reference's own stage. -/
theorem h2_v51 (e2 : (W main_arg2 : (⟨S640000, .f32⟩ : BufTy).Contents (Elt F)) = x2)
    (e8 : (W main_v8 : (⟨S50000x128, .f32⟩ : BufTy).Contents (Elt F)) = Cert.ReferenceIdeal.Read.val_main_v7 (F := F) x0 x5 x6)
    (e9 : (W main_v9 : (⟨S50000x128, .f32⟩ : BufTy).Contents (Elt F)) = Cert.ReferenceIdeal.Read.val_main_v15 (F := F) x0 x9 x10)
    (e10 : (W main_v10 : (⟨S50000x128, .f32⟩ : BufTy).Contents (Elt F)) = Cert.ReferenceIdeal.Read.val_main_v19 (F := F) x0 x11 x12)
    (e12 : (W main_v12 : (⟨S640000x128, .f32⟩ : BufTy).Contents (Elt F)) = Cert.ReferenceIdeal.Read.val_main_v11 (F := F) x1 x7 x8)
    (ev1 : (W main_v1 : (⟨S640000, .i32⟩ : BufTy).Contents (Elt F)) = Cert.ReferenceIdeal.Read.val_main_v21 (F := F) x17)
    (ev3 : (W main_v3 : (⟨S640000, .i32⟩ : BufTy).Contents (Elt F)) = Cert.ReferenceIdeal.Read.val_main_v23 (F := F) x17) :
    StableHlo.after hostOps2 W (Proc.devRef .tc main_v51) = Cert.ReferenceIdeal.Read.val_main_v59 (F := F) x0 x1 x2 x5 x6 x7 x8 x9 x10 x11 x12 x17 := by
  after_results_simp
  rw [e2, e8, e9, e10, e12, ev1, ev3]
  rfl

end Edge

/-- The three bias vectors of the node update as one-row matrices. -/
theorem h2_v52_apply (q : Fin 128) :
    (StableHlo.after hostOps2 W (Proc.devRef .tc main_v52) : S1x128.Idx → Elt F .f32) (ix2 (0 : Fin 1) q) = (W main_arg4 : S128.Idx → Elt F .f32) (ix1 q) := by
  have e : StableHlo.after hostOps2 W (Proc.devRef .tc main_v52) = shapeCast S1x128 (W main_arg4) shapeCasts_S128_S1x128 := by
    after_results <;> rfl
  rw [e]; exact shapeCast_a_1a_apply (a := 128) _ _ (0 : Fin 1) q
theorem h2_v53_apply (q : Fin 256) :
    (StableHlo.after hostOps2 W (Proc.devRef .tc main_v53) : S1x256.Idx → Elt F .f32) (ix2 (0 : Fin 1) q) = (W main_arg14 : S256.Idx → Elt F .f32) (ix1 q) := by
  have e : StableHlo.after hostOps2 W (Proc.devRef .tc main_v53) = shapeCast S1x256 (W main_arg14) shapeCasts_S256_S1x256 := by
    after_results <;> rfl
  rw [e]; exact shapeCast_a_1a_apply (a := 256) _ _ (0 : Fin 1) q
theorem h2_v54_apply (q : Fin 128) :
    (StableHlo.after hostOps2 W (Proc.devRef .tc main_v54) : S1x128.Idx → Elt F .f32) (ix2 (0 : Fin 1) q) = (W main_arg16 : S128.Idx → Elt F .f32) (ix1 q) := by
  have e : StableHlo.after hostOps2 W (Proc.devRef .tc main_v54) = shapeCast S1x128 (W main_arg16) shapeCasts_S128_S1x128 := by
    after_results <;> rfl
  rw [e]; exact shapeCast_a_1a_apply (a := 128) _ _ (0 : Fin 1) q

end Cert.KernelIdeal.Host

end
-- ==== Proof.Spec.lean ====
/-
  The row-wise specification of the three kernels and of the reference's stages, over the extended reals.

  `linRow xr W b` is one entry of "rows times weights plus bias": the dot product of a row `xr` of the
  left operand with a column `W` of the weights, plus that column's bias entry `b`.

  `ffnRow` is one entry of the node update.  With the hidden row
      y j = xr j + relu ((∑ l, xr l * WA l j + bA j) + ar j)
  (`ar` the row of aggregated messages), entry `q` of the result is
      y q + ((∑ k, relu ((∑ j, y j * W1 j k) + b1 k) * W2 k q) + b2 q).
  `relu v` is `max v 0`: what a maximum against the zero word reads as on either side.
-/
import Idealize.ShloMosaic.PureOps.Ideal.Laws
import Idealize.ShloMosaic.Lib.ValueIdx

open scoped BigOperators

namespace Cert.Spec

/-- One entry of `rows · W + bias`: `(∑ k, xr k * W k) + b`. -/
noncomputable def linRow (xr W : Fin 128 → EReal) (b : EReal) : EReal :=
  (∑ k : Fin 128, xr k * W k) + b

/-- The maximum against zero. -/
noncomputable def relu (v : EReal) : EReal := max v 0

/-- A maximum against the f32 zero word, at the ideal values, is `relu`. -/
theorem max_ofBits_zero (v : EReal) :
    max v (Idealize.ShloMosaic.Ideal.ofBits .f32 0x00000000#32) = relu v := by
  rw [Idealize.ShloMosaic.Ideal.ofBits_zero_f32]; rfl

/-- The hidden row of the node update at column `j`:
    `xr j + relu ((∑ l, xr l * WA l j + bA j) + ar j)`. -/
noncomputable def hidRow (xr ar : Fin 128 → EReal) (WA : Fin 128 → Fin 128 → EReal) (bA : Fin 128 → EReal)
    (j : Fin 128) : EReal :=
  xr j + relu (linRow xr (fun l => WA l j) (bA j) + ar j)

/-- The inner activation of the feed-forward block at column `k` of a hidden row `y`:
    `relu ((∑ j, y j * W1 j k) + b1 k)`. -/
noncomputable def actRow (y : Fin 128 → EReal) (W1 : Fin 128 → Fin 256 → EReal) (b1 : Fin 256 → EReal)
    (k : Fin 256) : EReal :=
  relu ((∑ j : Fin 128, y j * W1 j k) + b1 k)

/-- One entry of the node update: the hidden row plus the feed-forward block applied to it. -/
noncomputable def ffnRow (xr ar : Fin 128 → EReal) (WA : Fin 128 → Fin 128 → EReal) (bA : Fin 128 → EReal)
    (W1 : Fin 128 → Fin 256 → EReal) (b1 : Fin 256 → EReal) (W2 : Fin 256 → Fin 128 → EReal) (b2 : Fin 128 → EReal)
    (q : Fin 128) : EReal :=
  hidRow xr ar WA bA q
    + ((∑ k : Fin 256, actRow (hidRow xr ar WA bA) W1 b1 k * W2 k q) + b2 q)

end Cert.Spec
-- ==== Proof.KI.PayIdx.lean ====
/-
  The three kernel bodies' stored values read at one index, at the ideal values.

  Each body is "matmul into a zero accumulator, plus a bias row broadcast down the rows" (the two linear
  kernels), or the node update built from three such products (the third).  A plain rows-by-columns matmul
  into the zero accumulator reads, at (p, q), as the sum over the contraction coordinate k of the left
  operand at (p, k) times the right operand at (k, q); a format change is the identity on the extended
  reals; a [1, b] row broadcast to [a, b] reads the row's entry of the same column; a maximum against
  the zero word is the maximum against 0.
-/
import proofs.«131460_j31344671326721_2_alg».proof.Proof.Spec
import proofs.«131460_j31344671326721_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.Spec Idealize.ShloMosaic Idealize.ShloMosaic.ValueIdx

/-! ## A plain matmul read at an index -/

/-- A rows-by-columns matmul ([m, n] times [n, o], one contracting axis, no batch axis) into the zero
    accumulator, read at (p, q): the sum over the contraction coordinate of the left operand's row p times
    the right operand's column q.  The four hypotheses say where the dimension numbers send an output index
    and a contraction index: left operand (row of the output, contraction), right operand (contraction,
    column of the output). -/
theorem matmul_zero_ix2 {m n o : ℕ} {φ₁ φ₂ : FTy} (D : DotDims ⟨2, ![m, n]⟩ ⟨2, ![n, o]⟩ ⟨2, ![m, o]⟩)
    (hr : D.contr.rank = 1) (hs : D.contr.size ⟨0, by omega⟩ = n)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![m, n]⟩ φ₁) (r : FVec Ideal ⟨2, ![n, o]⟩ φ₂) (p : Fin m) (q : Fin o) :
    matmul D none l r (constant ⟨2, ![m, o]⟩ .f32 0x00000000#32) (ix2 p q) = ∑ k : Fin n, l (ix2 p k) * r (ix2 k q) := by
  refine (Ideal.matmul_constant_zero_apply D none l r (ix2 p q)).trans ?_
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun a => Fin.ext (by
    match a with
    | ⟨0, _⟩ => exact hl0 _ _
    | ⟨1, _⟩ => exact (hl1 _ _).trans hk)
  have er : D.rhsIdx (ix2 p q) ((contrEquiv1 D n hr hs).symm k) = ix2 k q := funext fun a => Fin.ext (by
    match a with
    | ⟨0, _⟩ => exact (hr0 _ _).trans hk
    | ⟨1, _⟩ => exact hr1 _ _)
  rw [el, er]

/-- The four index facts of one plain dot record, handed to `matmul_zero_ix2`: the output's row is a
    non-contracting, non-batch axis of the left operand, its column one of the right operand, and the single
    contracting axis of each carries the contraction coordinate. -/
local macro "plain_dot_at" D:ident sl:ident sr:ident : term => `(
  matmul_zero_ix2 $D rfl rfl
    (fun i q => by
      unfold DotDims.lhsIdx
      rw [dif_neg (show ¬(0 : Fin (Shape.rank $sl)) ∈ DotDims.lhsBatch $D by decide),
        dif_pos (show (0 : Fin (Shape.rank $sl)) ∈ DotDims.lhsNonContracting $D by decide)]
      rfl)
    (fun i q => DotDims.lhsIdx_val_of_single $D rfl i q)
    (fun i q => DotDims.rhsIdx_val_of_single $D rfl i q)
    (fun i q => by
      unfold DotDims.rhsIdx
      rw [dif_neg (show ¬(1 : Fin (Shape.rank $sr)) ∈ DotDims.rhsBatch $D by decide),
        dif_pos (show (1 : Fin (Shape.rank $sr)) ∈ DotDims.rhsNonContracting $D by decide)]
      rfl))

/-- [2000, 128] times [128, 384]. -/
theorem mm_2000_128_384 {φ₁ φ₂ : FTy} (l : FVec Ideal S2000x128 φ₁) (r : FVec Ideal S128x384 φ₂) (p : Fin 2000) (q : Fin 384) :
    matmul dot_S2000x128_S128x384_S2000x384_1_0_0_1_n_n none l r (constant S2000x384 .f32 0x00000000#32) (ix2 p q)
      = ∑ k : Fin 128, l (ix2 p k) * r (ix2 k q) :=
  (plain_dot_at dot_S2000x128_S128x384_S2000x384_1_0_0_1_n_n S2000x128 S128x384) l r p q

/-- [8000, 128] times [128, 128]. -/
theorem mm_8000_128_128 {φ₁ φ₂ : FTy} (l : FVec Ideal S8000x128 φ₁) (r : FVec Ideal S128x128 φ₂) (p : Fin 8000) (q : Fin 128) :
    matmul dot_S8000x128_S128x128_S8000x128_1_0_0_1_n_n none l r (constant S8000x128 .f32 0x00000000#32) (ix2 p q)
      = ∑ k : Fin 128, l (ix2 p k) * r (ix2 k q) :=
  (plain_dot_at dot_S8000x128_S128x128_S8000x128_1_0_0_1_n_n S8000x128 S128x128) l r p q

/-- [2000, 128] times [128, 128]. -/
theorem mm_2000_128_128 {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  (plain_dot_at dot_S2000x128_S128x128_S2000x128_1_0_0_1_n_n S2000x128 S128x128) l r p q

/-- [2000, 128] times [128, 256]. -/
theorem mm_2000_128_256 {φ₁ φ₂ : FTy} (l : FVec Ideal S2000x128 φ₁) (r : FVec Ideal S128x256 φ₂) (p : Fin 2000) (q : Fin 256) :
    matmul dot_S2000x128_S128x256_S2000x256_1_0_0_1_n_n none l r (constant S2000x256 .f32 0x00000000#32) (ix2 p q)
      = ∑ k : Fin 128, l (ix2 p k) * r (ix2 k q) :=
  (plain_dot_at dot_S2000x128_S128x256_S2000x256_1_0_0_1_n_n S2000x128 S128x256) l r p q

/-- [2000, 256] times [256, 128]. -/
theorem mm_2000_256_128 {φ₁ φ₂ : FTy} (l : FVec Ideal S2000x256 φ₁) (r : FVec Ideal S256x128 φ₂) (p : Fin 2000) (q : Fin 128) :
    matmul dot_S2000x256_S256x128_S2000x128_1_0_0_1_n_n none l r (constant S2000x128 .f32 0x00000000#32) (ix2 p q)
      = ∑ k : Fin 256, l (ix2 p k) * r (ix2 k q) :=
  (plain_dot_at dot_S2000x256_S256x128_S2000x128_1_0_0_1_n_n S2000x256 S256x128) l r p q

/-! ## The two linear kernels -/

/-- The first linear kernel's stored block at (p, q): row p of the block times column q of the weights,
    plus the bias row's entry q. -/
theorem pay0_apply (x0 : Vec Ideal S2000x128 .f32) (x1 : Vec Ideal S128x384 .f32) (x2 : Vec Ideal S1x384 .f32) (p : Fin 2000) (q : Fin 384) :
    k0_pay1 (F := Ideal) x0 x1 x2 (ix2 p q) = linRow (fun k => x0 (ix2 p k)) (fun k => x1 (ix2 k q)) (x2 (ix2 0 q)) := by
  unfold k0_pay1 linRow
  simp only [shapeCast_self]
  refine (addf_apply _ _ (ix2 p q)).trans ?_
  exact congrArg₂ (· + ·) (mm_2000_128_384 _ _ p q) (broadcastTo_1b_ab_apply _ _ p q)

/-- The second linear kernel's stored block at (p, q): the same reading over [8000, 128] blocks. -/
theorem pay1_apply (x0 : Vec Ideal S8000x128 .f32) (x1 : Vec Ideal S128x128 .f32) (x2 : Vec Ideal S1x128 .f32) (p : Fin 8000) (q : Fin 128) :
    k1_pay1 (F := Ideal) x0 x1 x2 (ix2 p q) = linRow (fun k => x0 (ix2 p k)) (fun k => x1 (ix2 k q)) (x2 (ix2 0 q)) := by
  unfold k1_pay1 linRow
  simp only [shapeCast_self]
  refine (addf_apply _ _ (ix2 p q)).trans ?_
  exact congrArg₂ (· + ·) (mm_8000_128_128 _ _ p q) (broadcastTo_1b_ab_apply _ _ p q)

end Cert.KernelIdeal.Val
-- ==== Proof.KI.Arr0.lean ====
import proofs.«131460_j31344671326721_2_alg».proof.Proof.KI.Reg0
import proofs.«131460_j31344671326721_2_alg».proof.Proof.KI.PayIdx
import Idealize.ShloMosaic.Lib.Pipeline.Value
import Idealize.ShloMosaic.Lib.ValueIdx

noncomputable section

/-!
  The first projection call, from blocks to the array. Grid point `t` of its 25 points takes rows `2000·t … 2000·t + 1999`
  of the node features, the one block of the 128×384 weights and the one block of the 1×384 bias, and writes rows
  `2000·t … 2000·t + 1999` of the 50000×384 result, all 384 columns. Entry `(p, q)` of the block it writes depends on row
  `p` of its feature block, column `q` of the weights and entry `q` of the bias only; so the block is the restriction to
  those rows of ONE function of the three operand arrays, `rowsTimesWeights0`, and the 25 row blocks fill the result.
-/

namespace Cert.KernelIdeal.Val

open Cert.KernelIdeal Cert.KernelIdeal.Gen Cert.KernelIdeal.GenP Cert.KernelIdeal.Fr Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets `![0, 0]` of a whole-buffer load or store are the zero offsets. -/
theorem zero_offsets0 : (![0, 0] : Fin 2 → Nat) = fun _ => 0 := funext fun a => by fin_cases a <;> rfl

/-- Entry `(r, q)` of the projected array: row `r` of the features against column `q` of the weights, plus the bias at `q`. -/
def rowsTimesWeights0At (c : Dev nD) (r : Fin 50000) (q : Fin 384) : Elt Ideal .f32 :=
  linRow (fun k => (V c main_arg0 : S50000x128.Idx → Elt Ideal .f32) (ix2 r k))
    (fun k => (V c main_v4 : S128x384.Idx → Elt Ideal .f32) (ix2 k q))
    ((V c main_v6 : S1x384.Idx → Elt Ideal .f32) (ix2 0 q))

/-- The projected array as one function of the operand arrays as the call finds them. -/
def rowsTimesWeights0 (c : Dev nD) : S50000x384.Idx → Elt Ideal .f32 := fun i => rowsTimesWeights0At V c (i 0) (i 1)

/-- The printed index maps, decided over the 25 grid points: the feature block and the result block at point `t` are row
    block `t`, on the one column block; the weights and the bias stay at their one block. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the body's payload, read off blocks whose row `j 0`, column `j 1` and bias entry `j 1` are row `r`,
    column `q` and bias entry `q` of three whole arrays. -/
theorem entry0 (x0 : Vec Ideal S2000x128 .f32) (x1 : Vec Ideal S128x384 .f32) (x2 : Vec Ideal S1x384 .f32)
    (A0 : S50000x128.Idx → Elt Ideal .f32) (A1 : S128x384.Idx → Elt Ideal .f32) (A2 : S1x384.Idx → Elt Ideal .f32)
    (r : Fin 50000) (q : Fin 384) (j : S2000x384.Idx)
    (h0 : ∀ k : Fin 128, x0 (ix2 (j 0) k) = A0 (ix2 r k))
    (h1 : ∀ k : Fin 128, x1 (ix2 k (j 1)) = A1 (ix2 k q))
    (h2 : x2 (ix2 0 (j 1)) = A2 (ix2 0 q)) :
    k0_pay1 (F := Ideal) x0 x1 x2 j = linRow (fun k => A0 (ix2 r k)) (fun k => A1 (ix2 k q)) (A2 (ix2 0 q)) := by
  obtain ⟨p, q', rfl⟩ : ∃ (p : Fin 2000) (q' : Fin 384), j = ix2 p q' := ⟨j 0, j 1, eq_ix2 j⟩
  refine (pay0_apply x0 x1 x2 p q').trans ?_
  have e0 : (fun k : Fin 128 => x0 (ix2 p k)) = fun k => A0 (ix2 r k) := funext h0
  have e1 : (fun k : Fin 128 => x1 (ix2 k q')) = fun k => A1 (ix2 k q) := funext h1
  have e2 : x2 (ix2 0 q') = A2 (ix2 0 q) := h2
  rw [e0, e1, e2]

/-- What grid point `t` writes back is block `t` of `rowsTimesWeights0`. -/
theorem flushed0_eq (c : Dev nD) (t : Fin cfg0.N) :
    (dat0 (F := Ideal) V c).flushed 3 t = ((cfg0.win 3).blk t).view.read (Elt Ideal) (rowsTimesWeights0 V c) := by
  show (cfg0.win 3).cut (grid0.coords t) ((dat0 V c).after 3 t) = _
  rw [after0_3]
  unfold out0_3
  rw [View.canon_unit_zero zero_offsets0]
  simp only [View.ld_unit_zero (S := S2000x128) zero_offsets0, View.ld_unit_zero (S := S128x384) zero_offsets0,
    View.ld_unit_zero (S := S1x384) zero_offsets0]
  obtain ⟨e00, e01, e10, e11, e20, e21, e30, e31⟩ := blocks0 t
  funext j
  have h0 : ∀ k : Fin 128, (iblk0 V c 0 t : Vec Ideal S2000x128 .f32) (ix2 (((cfg0.win 3).xinj (grid0.coords t) j) 0) k)
      = (V c main_arg0 : S50000x128.Idx → Elt Ideal .f32) (ix2 ((((cfg0.win 3).blk t).view.emb j) 0) k) := by
    intro k
    show (V c main_arg0 : S50000x128.Idx → Elt Ideal .f32) (((cfg0.win 0).blk t).view.emb (ix2 (((cfg0.win 3).xinj (grid0.coords t) j) 0) k)) = _
    refine congrArg (V c main_arg0 : S50000x128.Idx → Elt Ideal .f32) ?_
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  have h1 : ∀ k : Fin 128, (iblk0 V c 1 t : Vec Ideal S128x384 .f32) (ix2 k (((cfg0.win 3).xinj (grid0.coords t) j) 1))
      = (V c main_v4 : S128x384.Idx → Elt Ideal .f32) (ix2 k ((((cfg0.win 3).blk t).view.emb j) 1)) := by
    intro k
    show (V c main_v4 : S128x384.Idx → Elt Ideal .f32) (((cfg0.win 1).blk t).view.emb (ix2 k (((cfg0.win 3).xinj (grid0.coords t) j) 1))) = _
    refine congrArg (V c main_v4 : S128x384.Idx → Elt Ideal .f32) ?_
    funext a; apply Fin.ext
    match a with
    | ⟨0, _⟩ => show win0_1.index t (0 : Fin 2) * 128 + 1 * k.val = k.val; omega
    | ⟨1, _⟩ => show win0_1.index t (1 : Fin 2) * 384 + 1 * (j 1).val = win0_3.index t (1 : Fin 2) * 384 + 1 * (j 1).val; omega
  have h2 : (iblk0 V c 2 t : Vec Ideal S1x384 .f32) (ix2 0 (((cfg0.win 3).xinj (grid0.coords t) j) 1))
      = (V c main_v6 : S1x384.Idx → Elt Ideal .f32) (ix2 0 ((((cfg0.win 3).blk t).view.emb j) 1)) := by
    show (V c main_v6 : S1x384.Idx → Elt Ideal .f32) (((cfg0.win 2).blk t).view.emb (ix2 0 (((cfg0.win 3).xinj (grid0.coords t) j) 1))) = _
    refine congrArg (V c main_v6 : S1x384.Idx → Elt Ideal .f32) ?_
    funext a; apply Fin.ext
    match a with
    | ⟨0, _⟩ => show win0_2.index t (0 : Fin 2) * 1 + 1 * 0 = 0; omega
    | ⟨1, _⟩ => show win0_2.index t (1 : Fin 2) * 384 + 1 * (j 1).val = win0_3.index t (1 : Fin 2) * 384 + 1 * (j 1).val; omega
  exact entry0 (iblk0 V c 0 t) (iblk0 V c 1 t) (iblk0 V c 2 t) (V c main_arg0) (V c main_v4) (V c main_v6)
    ((((cfg0.win 3).blk t).view.emb j) 0) ((((cfg0.win 3).blk t).view.emb j) 1) ((cfg0.win 3).xinj (grid0.coords t) j) h0 h1 h2

/-- An index of the result array is in point `t`'s block iff each coordinate is in the block's range on its axis. -/
theorem mem_blk0 (t : Fin cfg0.N) (i : S50000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v7).slice (win0_3.rect t)).set ↔ _
  rw [View.set_slice_whole, Rect.mem_set_unit]
  exact Iff.rfl

/-- Every index of the result array is in some point's block: row `r` is in row block `r / 2000`. -/
theorem cover0 (i : S50000x384.Idx) :
    ∃ t : Fin cfg0.N, (cfg0.win 3).flush t = true ∧ i ∈ ((cfg0.win 3).blk t).view.set := by
  have hi0 : (i 0).val < 50000 := (i 0).isLt
  have hi1 : (i 1).val < 384 := (i 1).isLt
  have hN : grid0.N = 25 := N_0
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, -, -, e0, e1⟩ := blocks0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 384 ≤ (i 1).val ∧ (i 1).val < win0_3.index t (1 : Fin 2) * 384 + 384; omega

/-- The result array after the call is `rowsTimesWeights0` of the operand arrays. -/
theorem array0 (c : Dev nD) : (dat0 (F := Ideal) V c).arrAt 3 cfg0.N = rowsTimesWeights0 V c :=
  (dat0 (F := Ideal) V c).arrAt_eq_of_cover 3 (rowsTimesWeights0 V c) (fun t _ => flushed0_eq V c t) cover0

/-- Entry `(r, q)` of the result array after the call. -/
theorem final0 (c : Dev nD) (r : Fin 50000) (q : Fin 384) :
    (dat0 (F := Ideal) V c).arrAt 3 cfg0.N (ix2 r q)
      = linRow (fun k => V c main_arg0 (ix2 r k)) (fun k => V c main_v4 (ix2 k q)) (V c main_v6 (ix2 0 q)) :=
  congrFun (array0 V c) (ix2 r q)

end Cert.KernelIdeal.Val

end
-- ==== Proof.KI.Arr1.lean ====
import proofs.«131460_j31344671326721_2_alg».proof.Proof.KI.Reg1
import proofs.«131460_j31344671326721_2_alg».proof.Proof.KI.PayIdx
import Idealize.ShloMosaic.Lib.Pipeline.Value
import Idealize.ShloMosaic.Lib.ValueIdx

noncomputable section

/-!
  The second projection call, from blocks to the array. Grid point `t` of its 80 points takes rows `8000·t … 8000·t + 7999`
  of the edge features, the one block of the 128×128 weights and the one block of the 1×128 bias, and writes rows
  `8000·t … 8000·t + 7999` of the 640000×128 result, all 128 columns. Entry `(p, q)` of the block it writes depends on row
  `p` of its feature block, column `q` of the weights and entry `q` of the bias only; so the block is the restriction to
  those rows of ONE function of the three operand arrays, `rowsTimesWeights1`, and the 80 row blocks fill the result.
-/

namespace Cert.KernelIdeal.Val

open Cert.KernelIdeal Cert.KernelIdeal.Gen Cert.KernelIdeal.GenP Cert.KernelIdeal.Fr Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets `![0, 0]` of a whole-buffer load or store are the zero offsets. -/
theorem zero_offsets1 : (![0, 0] : Fin 2 → Nat) = fun _ => 0 := funext fun a => by fin_cases a <;> rfl

/-- Entry `(r, q)` of the projected array: row `r` of the features against column `q` of the weights, plus the bias at `q`. -/
def rowsTimesWeights1At (c : Dev nD) (r : Fin 640000) (q : Fin 128) : Elt Ideal .f32 :=
  linRow (fun k => (V c main_arg1 : S640000x128.Idx → Elt Ideal .f32) (ix2 r k))
    (fun k => (V c main_arg7 : S128x128.Idx → Elt Ideal .f32) (ix2 k q))
    ((V c main_v11 : S1x128.Idx → Elt Ideal .f32) (ix2 0 q))

/-- The projected array as one function of the operand arrays as the call finds them. -/
def rowsTimesWeights1 (c : Dev nD) : S640000x128.Idx → Elt Ideal .f32 := fun i => rowsTimesWeights1At V c (i 0) (i 1)

/-- The printed index maps, decided over the 80 grid points: the feature block and the result block at point `t` are row
    block `t`, on the one column block; the weights and the bias stay at their one block. -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the body's payload, read off blocks whose row `j 0`, column `j 1` and bias entry `j 1` are row `r`,
    column `q` and bias entry `q` of three whole arrays. -/
theorem entry1 (x0 : Vec Ideal S8000x128 .f32) (x1 : Vec Ideal S128x128 .f32) (x2 : Vec Ideal S1x128 .f32)
    (A0 : S640000x128.Idx → Elt Ideal .f32) (A1 : S128x128.Idx → Elt Ideal .f32) (A2 : S1x128.Idx → Elt Ideal .f32)
    (r : Fin 640000) (q : Fin 128) (j : S8000x128.Idx)
    (h0 : ∀ k : Fin 128, x0 (ix2 (j 0) k) = A0 (ix2 r k))
    (h1 : ∀ k : Fin 128, x1 (ix2 k (j 1)) = A1 (ix2 k q))
    (h2 : x2 (ix2 0 (j 1)) = A2 (ix2 0 q)) :
    k1_pay1 (F := Ideal) x0 x1 x2 j = linRow (fun k => A0 (ix2 r k)) (fun k => A1 (ix2 k q)) (A2 (ix2 0 q)) := by
  obtain ⟨p, q', rfl⟩ : ∃ (p : Fin 8000) (q' : Fin 128), j = ix2 p q' := ⟨j 0, j 1, eq_ix2 j⟩
  refine (pay1_apply x0 x1 x2 p q').trans ?_
  have e0 : (fun k : Fin 128 => x0 (ix2 p k)) = fun k => A0 (ix2 r k) := funext h0
  have e1 : (fun k : Fin 128 => x1 (ix2 k q')) = fun k => A1 (ix2 k q) := funext h1
  have e2 : x2 (ix2 0 q') = A2 (ix2 0 q) := h2
  rw [e0, e1, e2]

/-- What grid point `t` writes back is block `t` of `rowsTimesWeights1`. -/
theorem flushed1_eq (c : Dev nD) (t : Fin cfg1.N) :
    (dat1 (F := Ideal) V c).flushed 3 t = ((cfg1.win 3).blk t).view.read (Elt Ideal) (rowsTimesWeights1 V c) := by
  show (cfg1.win 3).cut (grid1.coords t) ((dat1 V c).after 3 t) = _
  rw [after1_3]
  unfold out1_3
  rw [View.canon_unit_zero zero_offsets1]
  simp only [View.ld_unit_zero (S := S8000x128) zero_offsets1, View.ld_unit_zero (S := S128x128) zero_offsets1,
    View.ld_unit_zero (S := S1x128) zero_offsets1]
  obtain ⟨e00, e01, e10, e11, e20, e21, e30, e31⟩ := blocks1 t
  funext j
  have h0 : ∀ k : Fin 128, (iblk1 V c 0 t : Vec Ideal S8000x128 .f32) (ix2 (((cfg1.win 3).xinj (grid1.coords t) j) 0) k)
      = (V c main_arg1 : S640000x128.Idx → Elt Ideal .f32) (ix2 ((((cfg1.win 3).blk t).view.emb j) 0) k) := by
    intro k
    show (V c main_arg1 : S640000x128.Idx → Elt Ideal .f32) (((cfg1.win 0).blk t).view.emb (ix2 (((cfg1.win 3).xinj (grid1.coords t) j) 0) k)) = _
    refine congrArg (V c main_arg1 : S640000x128.Idx → Elt Ideal .f32) ?_
    funext a; apply Fin.ext
    match a with
    | ⟨0, _⟩ => show win1_0.index t (0 : Fin 2) * 8000 + 1 * (j 0).val = win1_3.index t (0 : Fin 2) * 8000 + 1 * (j 0).val; omega
    | ⟨1, _⟩ => show win1_0.index t (1 : Fin 2) * 128 + 1 * k.val = k.val; omega
  have h1 : ∀ k : Fin 128, (iblk1 V c 1 t : Vec Ideal S128x128 .f32) (ix2 k (((cfg1.win 3).xinj (grid1.coords t) j) 1))
      = (V c main_arg7 : S128x128.Idx → Elt Ideal .f32) (ix2 k ((((cfg1.win 3).blk t).view.emb j) 1)) := by
    intro k
    show (V c main_arg7 : S128x128.Idx → Elt Ideal .f32) (((cfg1.win 1).blk t).view.emb (ix2 k (((cfg1.win 3).xinj (grid1.coords t) j) 1))) = _
    refine congrArg (V c main_arg7 : S128x128.Idx → Elt Ideal .f32) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have h2 : (iblk1 V c 2 t : Vec Ideal S1x128 .f32) (ix2 0 (((cfg1.win 3).xinj (grid1.coords t) j) 1))
      = (V c main_v11 : S1x128.Idx → Elt Ideal .f32) (ix2 0 ((((cfg1.win 3).blk t).view.emb j) 1)) := by
    show (V c main_v11 : S1x128.Idx → Elt Ideal .f32) (((cfg1.win 2).blk t).view.emb (ix2 0 (((cfg1.win 3).xinj (grid1.coords t) j) 1))) = _
    refine congrArg (V c main_v11 : S1x128.Idx → Elt Ideal .f32) ?_
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  exact entry1 (iblk1 V c 0 t) (iblk1 V c 1 t) (iblk1 V c 2 t) (V c main_arg1) (V c main_arg7) (V c main_v11)
    ((((cfg1.win 3).blk t).view.emb j) 0) ((((cfg1.win 3).blk t).view.emb j) 1) ((cfg1.win 3).xinj (grid1.coords t) j) h0 h1 h2

/-- An index of the result array is in point `t`'s block iff each coordinate is in the block's range on its axis. -/
theorem mem_blk1 (t : Fin cfg1.N) (i : S640000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v12).slice (win1_3.rect t)).set ↔ _
  rw [View.set_slice_whole, Rect.mem_set_unit]
  exact Iff.rfl

/-- Every index of the result array is in some point's block: row `r` is in row block `r / 8000`. -/
theorem cover1 (i : S640000x128.Idx) :
    ∃ t : Fin cfg1.N, (cfg1.win 3).flush t = true ∧ i ∈ ((cfg1.win 3).blk t).view.set := by
  have hi0 : (i 0).val < 640000 := (i 0).isLt
  have hi1 : (i 1).val < 128 := (i 1).isLt
  have hN : grid1.N = 80 := N_1
  obtain ⟨t, ht⟩ : ∃ t : Fin cfg1.N, t.val = (i 0).val / 8000 :=
    ⟨⟨(i 0).val / 8000, by show (i 0).val / 8000 < grid1.N; rw [hN]; omega⟩, rfl⟩
  obtain ⟨-, -, -, -, -, -, e0, e1⟩ := blocks1 t
  refine ⟨t, flush1_3 t, ?_⟩
  rw [mem_blk1]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- The result array after the call is `rowsTimesWeights1` of the operand arrays. -/
theorem array1 (c : Dev nD) : (dat1 (F := Ideal) V c).arrAt 3 cfg1.N = rowsTimesWeights1 V c :=
  (dat1 (F := Ideal) V c).arrAt_eq_of_cover 3 (rowsTimesWeights1 V c) (fun t _ => flushed1_eq V c t) cover1

/-- Entry `(r, q)` of the result array after the call. -/
theorem final1 (c : Dev nD) (r : Fin 640000) (q : Fin 128) :
    (dat1 (F := Ideal) V c).arrAt 3 cfg1.N (ix2 r q)
      = linRow (fun k => V c main_arg1 (ix2 r k)) (fun k => V c main_arg7 (ix2 k q)) (V c main_v11 (ix2 0 q)) :=
  congrFun (array1 V c) (ix2 r q)

end Cert.KernelIdeal.Val

end
-- ==== Proof.KI.PayIdx2.lean ====
/-
  The node-update kernel's stored value read at one index, at the ideal values.

  The body computes a hidden block  y = x + max((x·WA + bA) + a, 0)  and stores  y + (max(y·W1 + b1, 0)·W2 + b2).
  Each of the three products is a plain matmul into the zero accumulator, read at an index as a sum over
  the contraction coordinate; each bias is a [1, b] row broadcast down the rows; each maximum is against the
  zero word.  Naming the hidden block and the inner activation splits the reading into three short steps.
-/
import proofs.«131460_j31344671326721_2_alg».proof.Proof.KI.PayIdx

noncomputable section

namespace Cert.KernelIdeal.Val

open Cert.KernelIdeal Cert.KernelIdeal.Gen Cert.Spec Idealize.ShloMosaic Idealize.ShloMosaic.ValueIdx

/-- The third kernel's hidden block: the input block plus the maximum against zero of
    (block times WA plus the bias row) plus the block of aggregated messages. -/
def hidK (v0 : Vec Ideal S2000x128 .f32) (v2 : Vec Ideal S128x128 .f32) (v5 : Vec Ideal S1x128 .f32) (v10 : Vec Ideal S2000x128 .f32) :
    FVec Ideal S2000x128 .f32 :=
  addf v0 (maximumf (addf (addf (matmul dot_S2000x128_S128x128_S2000x128_1_0_0_1_n_n none (truncf .bf16 v0 bitsLt_bf16_f32)
      (truncf .bf16 v2 bitsLt_bf16_f32) (constant S2000x128 .f32 0x00000000#32))
    (broadcastTo S2000x128 v5 broadcasts_S1x128_S2000x128)) v10) (broadcast S2000x128 (Scalar.ofBits .f32 0x00000000#32)))

/-- The feed-forward block's inner activation of a hidden block `y`: the maximum against zero of
    y times W1 plus the bias row. -/
def actK (y : FVec Ideal S2000x128 .f32) (v17 : Vec Ideal S128x256 .f32) (v20 : Vec Ideal S1x256 .f32) : FVec Ideal S2000x256 .f32 :=
  maximumf (addf (matmul dot_S2000x128_S128x256_S2000x256_1_0_0_1_n_n none (truncf .bf16 y bitsLt_bf16_f32)
      (truncf .bf16 v17 bitsLt_bf16_f32) (constant S2000x256 .f32 0x00000000#32))
    (broadcastTo S2000x256 v20 broadcasts_S1x256_S2000x256)) (broadcast S2000x256 (Scalar.ofBits .f32 0x00000000#32))

/-- The third kernel's stored value in terms of its hidden block and inner activation. -/
theorem k2_pay1_eq (v0 : Vec Ideal S2000x128 .f32) (v2 : Vec Ideal S128x128 .f32) (v5 : Vec Ideal S1x128 .f32) (v10 : Vec Ideal S2000x128 .f32) (v17 : Vec Ideal S128x256 .f32) (v20 : Vec Ideal S1x256 .f32) (v28 : Vec Ideal S256x128 .f32) (v31 : Vec Ideal S1x128 .f32) :
    k2_pay1 (F := Ideal) v0 v2 v5 v10 v17 v20 v28 v31
      = addf (hidK v0 v2 v5 v10) (addf (matmul dot_S2000x256_S256x128_S2000x128_1_0_0_1_n_n none
          (truncf .bf16 (actK (hidK v0 v2 v5 v10) v17 v20) bitsLt_bf16_f32) (truncf .bf16 v28 bitsLt_bf16_f32)
          (constant S2000x128 .f32 0x00000000#32)) (broadcastTo S2000x128 v31 broadcasts_S1x128_S2000x128)) := by
  unfold k2_pay1 hidK actK
  simp only [shapeCast_self]

/-- The hidden block at (p, j) is the specification's hidden row of row p. -/
theorem hidK_apply (v0 : Vec Ideal S2000x128 .f32) (v2 : Vec Ideal S128x128 .f32) (v5 : Vec Ideal S1x128 .f32) (v10 : Vec Ideal S2000x128 .f32) (p : Fin 2000) (j : Fin 128) :
    hidK v0 v2 v5 v10 (ix2 p j)
      = hidRow (fun k => v0 (ix2 p k)) (fun k => v10 (ix2 p k)) (fun l j => v2 (ix2 l j)) (fun j => v5 (ix2 0 j)) j := by
  unfold hidK hidRow linRow
  refine (addf_apply _ _ (ix2 p j)).trans ?_
  refine congrArg (v0 (ix2 p j) + ·) ?_
  refine (maximumf_apply _ _ (ix2 p j)).trans ?_
  refine Eq.trans ?_ (max_ofBits_zero _)
  refine congrArg (max · _) ?_
  refine (addf_apply _ _ (ix2 p j)).trans ?_
  refine congrArg (· + v10 (ix2 p j)) ?_
  refine (addf_apply _ _ (ix2 p j)).trans ?_
  exact congrArg₂ (· + ·) (mm_2000_128_128 _ _ p j) (broadcastTo_1b_ab_apply _ _ p j)

/-- The inner activation at (p, k), in terms of row p of the hidden block. -/
theorem actK_apply (y : FVec Ideal S2000x128 .f32) (v17 : Vec Ideal S128x256 .f32) (v20 : Vec Ideal S1x256 .f32) (p : Fin 2000) (k : Fin 256) :
    actK y v17 v20 (ix2 p k) = actRow (fun j => y (ix2 p j)) (fun j k => v17 (ix2 j k)) (fun k => v20 (ix2 0 k)) k := by
  unfold actK actRow
  refine (maximumf_apply _ _ (ix2 p k)).trans ?_
  refine Eq.trans ?_ (max_ofBits_zero _)
  refine congrArg (max · _) ?_
  refine (addf_apply _ _ (ix2 p k)).trans ?_
  exact congrArg₂ (· + ·) (mm_2000_128_256 _ _ p k) (broadcastTo_1b_ab_apply _ _ p k)

/-- The node-update kernel's stored block at (p, q): the specification's entry q for the input row p, the
    aggregated-message row p and the weights. -/
theorem pay2_apply (v0 : Vec Ideal S2000x128 .f32) (v2 : Vec Ideal S128x128 .f32) (v5 : Vec Ideal S1x128 .f32) (v10 : Vec Ideal S2000x128 .f32) (v17 : Vec Ideal S128x256 .f32) (v20 : Vec Ideal S1x256 .f32) (v28 : Vec Ideal S256x128 .f32) (v31 : Vec Ideal S1x128 .f32) (p : Fin 2000) (q : Fin 128) :
    k2_pay1 (F := Ideal) v0 v2 v5 v10 v17 v20 v28 v31 (ix2 p q)
      = ffnRow (fun k => v0 (ix2 p k)) (fun k => v10 (ix2 p k)) (fun l j => v2 (ix2 l j)) (fun j => v5 (ix2 0 j)) (fun j k => v17 (ix2 j k)) (fun k => v20 (ix2 0 k)) (fun k j => v28 (ix2 k j)) (fun j => v31 (ix2 0 j)) q := by
  rw [k2_pay1_eq]
  unfold ffnRow
  refine (addf_apply _ _ (ix2 p q)).trans ?_
  refine congrArg₂ (· + ·) (hidK_apply v0 v2 v5 v10 p q) ?_
  refine (addf_apply _ _ (ix2 p q)).trans ?_
  refine congrArg₂ (· + ·) ?_ (broadcastTo_1b_ab_apply _ _ p q)
  refine (mm_2000_256_128 _ _ p q).trans ?_
  refine Finset.sum_congr rfl fun k _ => ?_
  refine congrArg (· * v28 (ix2 k q)) ?_
  refine (actK_apply (hidK v0 v2 v5 v10) v17 v20 p k).trans ?_
  exact congrArg (fun y => actRow y (fun j k => v17 (ix2 j k)) (fun k => v20 (ix2 0 k)) k) (funext fun j => hidK_apply v0 v2 v5 v10 p j)

end Cert.KernelIdeal.Val
-- ==== Proof.KI.Arr2.lean ====
import proofs.«131460_j31344671326721_2_alg».proof.Proof.KI.Reg2
import proofs.«131460_j31344671326721_2_alg».proof.Proof.KI.PayIdx2
import Idealize.ShloMosaic.Lib.Pipeline.Value
import Idealize.ShloMosaic.Lib.ValueIdx

noncomputable section

/-!
  The node-update call, from blocks to the array. Grid point `t` of its 25 points takes rows `2000·t … 2000·t + 1999` of
  the node features and of the aggregated messages, and the one block of each of the three weight matrices and three bias
  rows, and writes rows `2000·t … 2000·t + 1999` of the 50000×128 result. Entry `(p, q)` of the block it writes depends on
  row `p` of the two row blocks and on the weights and biases only; so the block is the restriction to those rows of ONE
  function of the eight operand arrays, `nodeUpdate2`, and the 25 row blocks fill the result.
-/

namespace Cert.KernelIdeal.Val

open Cert.KernelIdeal Cert.KernelIdeal.Gen Cert.KernelIdeal.GenP Cert.KernelIdeal.Fr Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets `![0, 0]` of a whole-buffer load or store are the zero offsets. -/
theorem zero_offsets2 : (![0, 0] : Fin 2 → Nat) = fun _ => 0 := funext fun a => by fin_cases a <;> rfl

/-- Entry `(r, q)` of the updated node array: the node update of row `r` of the features and row `r` of the aggregated
    messages, under the three weight matrices and their bias rows, at column `q`. -/
def nodeUpdate2At (c : Dev nD) (r : Fin 50000) (q : Fin 128) : Elt Ideal .f32 :=
  ffnRow (fun k => (V c main_arg0 : S50000x128.Idx → Elt Ideal .f32) (ix2 r k))
    (fun k => (V c main_v51 : S50000x128.Idx → Elt Ideal .f32) (ix2 r k))
    (fun l j => (V c main_arg3 : S128x128.Idx → Elt Ideal .f32) (ix2 l j))
    (fun j => (V c main_v52 : S1x128.Idx → Elt Ideal .f32) (ix2 0 j))
    (fun j k => (V c main_arg13 : S128x256.Idx → Elt Ideal .f32) (ix2 j k))
    (fun k => (V c main_v53 : S1x256.Idx → Elt Ideal .f32) (ix2 0 k))
    (fun k j => (V c main_arg15 : S256x128.Idx → Elt Ideal .f32) (ix2 k j))
    (fun j => (V c main_v54 : S1x128.Idx → Elt Ideal .f32) (ix2 0 j)) q

/-- The updated node array as one function of the operand arrays as the call finds them. -/
def nodeUpdate2 (c : Dev nD) : S50000x128.Idx → Elt Ideal .f32 := fun i => nodeUpdate2At V c (i 0) (i 1)

/-- The printed index maps, decided over the 25 grid points: the two row blocks read and the result block at point `t` are
    row block `t`, on the one column block; the weights and the biases stay at their one block. -/
theorem blocks2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- One entry of the body's payload, read off two row blocks whose row `j 0` is row `r` of two whole arrays, and off weight
    and bias blocks that are whole arrays. -/
theorem entry2 (x0 x1 : Vec Ideal S2000x128 .f32) (x2 : Vec Ideal S128x128 .f32) (x3 : Vec Ideal S1x128 .f32)
    (x4 : Vec Ideal S128x256 .f32) (x5 : Vec Ideal S1x256 .f32) (x6 : Vec Ideal S256x128 .f32) (x7 : Vec Ideal S1x128 .f32)
    (A0 A1 : S50000x128.Idx → Elt Ideal .f32) (A2 : S128x128.Idx → Elt Ideal .f32) (A3 : S1x128.Idx → Elt Ideal .f32)
    (A4 : S128x256.Idx → Elt Ideal .f32) (A5 : S1x256.Idx → Elt Ideal .f32) (A6 : S256x128.Idx → Elt Ideal .f32)
    (A7 : S1x128.Idx → Elt Ideal .f32)
    (r : Fin 50000) (q : Fin 128) (j : S2000x128.Idx)
    (h0 : ∀ k : Fin 128, x0 (ix2 (j 0) k) = A0 (ix2 r k))
    (h1 : ∀ k : Fin 128, x1 (ix2 (j 0) k) = A1 (ix2 r k))
    (h2 : ∀ i, x2 i = A2 i) (h3 : ∀ i, x3 i = A3 i) (h4 : ∀ i, x4 i = A4 i) (h5 : ∀ i, x5 i = A5 i)
    (h6 : ∀ i, x6 i = A6 i) (h7 : ∀ i, x7 i = A7 i) (hq : j 1 = q) :
    k2_pay1 (F := Ideal) x0 x2 x3 x1 x4 x5 x6 x7 j
      = ffnRow (fun k => A0 (ix2 r k)) (fun k => A1 (ix2 r k)) (fun l j => A2 (ix2 l j)) (fun j => A3 (ix2 0 j))
          (fun j k => A4 (ix2 j k)) (fun k => A5 (ix2 0 k)) (fun k j => A6 (ix2 k j)) (fun j => A7 (ix2 0 j)) q := by
  obtain ⟨p, q', rfl⟩ : ∃ (p : Fin 2000) (q' : Fin 128), j = ix2 p q' := ⟨j 0, j 1, eq_ix2 j⟩
  obtain rfl : x2 = A2 := funext h2
  obtain rfl : x3 = A3 := funext h3
  obtain rfl : x4 = A4 := funext h4
  obtain rfl : x5 = A5 := funext h5
  obtain rfl : x6 = A6 := funext h6
  obtain rfl : x7 = A7 := funext h7
  obtain rfl : q' = q := hq
  refine (pay2_apply x0 x2 x3 x1 x4 x5 x6 x7 p q').trans ?_
  have e0 : (fun k : Fin 128 => x0 (ix2 p k)) = fun k => A0 (ix2 r k) := funext h0
  have e1 : (fun k : Fin 128 => x1 (ix2 p k)) = fun k => A1 (ix2 r k) := funext h1
  rw [e0, e1]

/-- A whole-array function read through the result block of point `t`, at a block index. -/
theorem read_blk2 (G : S50000x128.Idx → Elt Ideal .f32) (t : Fin cfg2.N) (j : ((cfg2.win 8).xblock (grid2.coords t)).Idx) :
    ((cfg2.win 8).blk t).view.read (Elt Ideal) G j = G (((cfg2.win 8).blk t).view.emb j) := rfl

/-- What a write-back of a result buffer holding `X` writes, at a block index: the blocks are not cut, so it is `X` there. -/
theorem cut_blk2 (X : S2000x128.Idx → Elt Ideal .f32) (t : Fin cfg2.N) (j : ((cfg2.win 8).xblock (grid2.coords t)).Idx) :
    (cfg2.win 8).cut (grid2.coords t) X j = X ((cfg2.win 8).xinj (grid2.coords t) j) := rfl

/-- What grid point `t` writes back is block `t` of `nodeUpdate2`. -/
theorem flushed2_eq (c : Dev nD) (t : Fin cfg2.N) :
    (dat2 (F := Ideal) V c).flushed 8 t = ((cfg2.win 8).blk t).view.read (Elt Ideal) (nodeUpdate2 V c) := by
  show (cfg2.win 8).cut (grid2.coords t) ((dat2 V c).after 8 t) = _
  rw [after2_8]
  unfold out2_8
  rw [View.canon_unit_zero zero_offsets2]
  simp only [View.ld_unit_zero (S := S2000x128) zero_offsets2, View.ld_unit_zero (S := S128x128) zero_offsets2,
    View.ld_unit_zero (S := S1x128) zero_offsets2, View.ld_unit_zero (S := S128x256) zero_offsets2,
    View.ld_unit_zero (S := S1x256) zero_offsets2, View.ld_unit_zero (S := S256x128) zero_offsets2]
  obtain ⟨e00, e01, e10, e11, e20, e21, e30, e31, e40, e41, e50, e51, e60, e61, e70, e71, e80, e81⟩ := blocks2 t
  funext j
  have h0 : ∀ k : Fin 128, (iblk2 V c 0 t : Vec Ideal S2000x128 .f32) (ix2 (((cfg2.win 8).xinj (grid2.coords t) j) 0) k)
      = (V c main_arg0 : S50000x128.Idx → Elt Ideal .f32) (ix2 ((((cfg2.win 8).blk t).view.emb j) 0) k) := by
    intro k
    show (V c main_arg0 : S50000x128.Idx → Elt Ideal .f32) (((cfg2.win 0).blk t).view.emb (ix2 (((cfg2.win 8).xinj (grid2.coords t) j) 0) k)) = _
    refine congrArg (V c main_arg0 : S50000x128.Idx → Elt Ideal .f32) ?_
    funext a; apply Fin.ext
    match a with
    | ⟨0, _⟩ => show win2_0.index t (0 : Fin 2) * 2000 + 1 * (j 0).val = win2_8.index t (0 : Fin 2) * 2000 + 1 * (j 0).val; omega
    | ⟨1, _⟩ => show win2_0.index t (1 : Fin 2) * 128 + 1 * k.val = k.val; omega
  have h1 : ∀ k : Fin 128, (iblk2 V c 1 t : Vec Ideal S2000x128 .f32) (ix2 (((cfg2.win 8).xinj (grid2.coords t) j) 0) k)
      = (V c main_v51 : S50000x128.Idx → Elt Ideal .f32) (ix2 ((((cfg2.win 8).blk t).view.emb j) 0) k) := by
    intro k
    show (V c main_v51 : S50000x128.Idx → Elt Ideal .f32) (((cfg2.win 1).blk t).view.emb (ix2 (((cfg2.win 8).xinj (grid2.coords t) j) 0) k)) = _
    refine congrArg (V c main_v51 : S50000x128.Idx → Elt Ideal .f32) ?_
    funext a; apply Fin.ext
    match a with
    | ⟨0, _⟩ => show win2_1.index t (0 : Fin 2) * 2000 + 1 * (j 0).val = win2_8.index t (0 : Fin 2) * 2000 + 1 * (j 0).val; omega
    | ⟨1, _⟩ => show win2_1.index t (1 : Fin 2) * 128 + 1 * k.val = k.val; omega
  have h2 : ∀ i : S128x128.Idx, (iblk2 V c 2 t : Vec Ideal S128x128 .f32) i = (V c main_arg3 : S128x128.Idx → Elt Ideal .f32) i := by
    intro i
    show (V c main_arg3 : S128x128.Idx → Elt Ideal .f32) (((cfg2.win 2).blk t).view.emb i) = _
    refine congrArg (V c main_arg3 : S128x128.Idx → Elt Ideal .f32) ?_
    funext a; apply Fin.ext
    match a with
    | ⟨0, _⟩ => show win2_2.index t (0 : Fin 2) * 128 + 1 * (i 0).val = (i 0).val; omega
    | ⟨1, _⟩ => show win2_2.index t (1 : Fin 2) * 128 + 1 * (i 1).val = (i 1).val; omega
  have h3 : ∀ i : S1x128.Idx, (iblk2 V c 3 t : Vec Ideal S1x128 .f32) i = (V c main_v52 : S1x128.Idx → Elt Ideal .f32) i := by
    intro i
    show (V c main_v52 : S1x128.Idx → Elt Ideal .f32) (((cfg2.win 3).blk t).view.emb i) = _
    refine congrArg (V c main_v52 : S1x128.Idx → Elt Ideal .f32) ?_
    funext a; apply Fin.ext
    match a with
    | ⟨0, _⟩ => show win2_3.index t (0 : Fin 2) * 1 + 1 * (i 0).val = (i 0).val; omega
    | ⟨1, _⟩ => show win2_3.index t (1 : Fin 2) * 128 + 1 * (i 1).val = (i 1).val; omega
  have h4 : ∀ i : S128x256.Idx, (iblk2 V c 4 t : Vec Ideal S128x256 .f32) i = (V c main_arg13 : S128x256.Idx → Elt Ideal .f32) i := by
    intro i
    show (V c main_arg13 : S128x256.Idx → Elt Ideal .f32) (((cfg2.win 4).blk t).view.emb i) = _
    refine congrArg (V c main_arg13 : S128x256.Idx → Elt Ideal .f32) ?_
    funext a; apply Fin.ext
    match a with
    | ⟨0, _⟩ => show win2_4.index t (0 : Fin 2) * 128 + 1 * (i 0).val = (i 0).val; omega
    | ⟨1, _⟩ => show win2_4.index t (1 : Fin 2) * 256 + 1 * (i 1).val = (i 1).val; omega
  have h5 : ∀ i : S1x256.Idx, (iblk2 V c 5 t : Vec Ideal S1x256 .f32) i = (V c main_v53 : S1x256.Idx → Elt Ideal .f32) i := by
    intro i
    show (V c main_v53 : S1x256.Idx → Elt Ideal .f32) (((cfg2.win 5).blk t).view.emb i) = _
    refine congrArg (V c main_v53 : S1x256.Idx → Elt Ideal .f32) ?_
    funext a; apply Fin.ext
    match a with
    | ⟨0, _⟩ => show win2_5.index t (0 : Fin 2) * 1 + 1 * (i 0).val = (i 0).val; omega
    | ⟨1, _⟩ => show win2_5.index t (1 : Fin 2) * 256 + 1 * (i 1).val = (i 1).val; omega
  have h6 : ∀ i : S256x128.Idx, (iblk2 V c 6 t : Vec Ideal S256x128 .f32) i = (V c main_arg15 : S256x128.Idx → Elt Ideal .f32) i := by
    intro i
    show (V c main_arg15 : S256x128.Idx → Elt Ideal .f32) (((cfg2.win 6).blk t).view.emb i) = _
    refine congrArg (V c main_arg15 : S256x128.Idx → Elt Ideal .f32) ?_
    funext a; apply Fin.ext
    match a with
    | ⟨0, _⟩ => show win2_6.index t (0 : Fin 2) * 256 + 1 * (i 0).val = (i 0).val; omega
    | ⟨1, _⟩ => show win2_6.index t (1 : Fin 2) * 128 + 1 * (i 1).val = (i 1).val; omega
  have h7 : ∀ i : S1x128.Idx, (iblk2 V c 7 t : Vec Ideal S1x128 .f32) i = (V c main_v54 : S1x128.Idx → Elt Ideal .f32) i := by
    intro i
    show (V c main_v54 : S1x128.Idx → Elt Ideal .f32) (((cfg2.win 7).blk t).view.emb i) = _
    refine congrArg (V c main_v54 : S1x128.Idx → Elt Ideal .f32) ?_
    funext a; apply Fin.ext
    match a with
    | ⟨0, _⟩ => show win2_7.index t (0 : Fin 2) * 1 + 1 * (i 0).val = (i 0).val; omega
    | ⟨1, _⟩ => show win2_7.index t (1 : Fin 2) * 128 + 1 * (i 1).val = (i 1).val; omega
  have hq : ((cfg2.win 8).xinj (grid2.coords t) j) 1 = (((cfg2.win 8).blk t).view.emb j) 1 := by
    apply Fin.ext
    show (j 1).val = win2_8.index t (1 : Fin 2) * 128 + 1 * (j 1).val
    omega
  refine (cut_blk2 _ t j).trans (Eq.trans ?_ (read_blk2 (nodeUpdate2 V c) t j).symm)
  unfold nodeUpdate2 nodeUpdate2At
  exact entry2 (iblk2 V c 0 t) (iblk2 V c 1 t) (iblk2 V c 2 t) (iblk2 V c 3 t) (iblk2 V c 4 t) (iblk2 V c 5 t) (iblk2 V c 6 t) (iblk2 V c 7 t)
    (V c main_arg0) (V c main_v51) (V c main_arg3) (V c main_v52) (V c main_arg13) (V c main_v53) (V c main_arg15) (V c main_v54)
    ((((cfg2.win 8).blk t).view.emb j) 0) ((((cfg2.win 8).blk t).view.emb j) 1) ((cfg2.win 8).xinj (grid2.coords t) j)
    h0 h1 h2 h3 h4 h5 h6 h7 hq

/-- An index of the result array is in point `t`'s block iff each coordinate is in the block's range on its axis. -/
theorem mem_blk2 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v55).slice (win2_8.rect t)).set ↔ _
  rw [View.set_slice_whole, Rect.mem_set_unit]
  exact Iff.rfl

/-- Every index of the result array is in some point's block: row `r` is in row block `r / 2000`. -/
theorem cover2 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : grid2.N = 25 := N_2
  obtain ⟨t, ht⟩ : ∃ t : Fin cfg2.N, t.val = (i 0).val / 2000 :=
    ⟨⟨(i 0).val / 2000, by show (i 0).val / 2000 < grid2.N; rw [hN]; omega⟩, rfl⟩
  obtain ⟨-, -, -, -, -, -, -, -, -, -, -, -, -, -, -, -, e0, e1⟩ := blocks2 t
  refine ⟨t, flush2_8 t, ?_⟩
  rw [mem_blk2]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- The result array after the call is `nodeUpdate2` of the operand arrays. -/
theorem array2 (c : Dev nD) : (dat2 (F := Ideal) V c).arrAt 8 cfg2.N = nodeUpdate2 V c :=
  (dat2 (F := Ideal) V c).arrAt_eq_of_cover 8 (nodeUpdate2 V c) (fun t _ => flushed2_eq V c t) cover2

/-- Entry `(r, q)` of the result array after the call. -/
theorem final2 (c : Dev nD) (r : Fin 50000) (q : Fin 128) :
    (dat2 (F := Ideal) V c).arrAt 8 cfg2.N (ix2 r q)
      = ffnRow (fun k => V c main_arg0 (ix2 r k)) (fun k => V c main_v51 (ix2 r k)) (fun l j => V c main_arg3 (ix2 l j))
          (fun j => V c main_v52 (ix2 0 j)) (fun j k => V c main_arg13 (ix2 j k)) (fun k => V c main_v53 (ix2 0 k))
          (fun k j => V c main_arg15 (ix2 k j)) (fun j => V c main_v54 (ix2 0 j)) q :=
  congrFun (array2 V c) (ix2 r q)

end Cert.KernelIdeal.Val

end
-- ==== Proof.RefIdx.lean ====
/-
  The reference's stages read at one index, at the ideal values.

  A host dot_general of [n, 128] by [128, o] reads at (r, q) as the sum over the contraction coordinate k of
  the left operand at (r, k) times the right operand at (k, q); a 1-D bias broadcast along the rows reads its
  entry of the same column; the maximum against a broadcast zero word is the maximum against 0.  With these
  the four linear stages are `linRow` and the final node result is `ffnRow` of the input row, the row of the
  scatter-added messages (kept as the opaque stage it is), and the weights.
-/
import proofs.«131460_j31344671326721_2_alg».proof.Proof.Spec
import proofs.«131460_j31344671326721_2_alg».proof.Proof.Gen.ReferenceIdeal.Read

noncomputable section

namespace Cert.ReferenceIdeal.RefValue

open Cert.ReferenceIdeal Cert.ReferenceIdeal.Gen Cert.Spec Idealize.ShloMosaic Idealize.ShloMosaic.ValueIdx

/-- Two rank-2 (or rank-1) indices with the same coordinates are equal: by cases on the axis. -/
local macro "idx_cases" : tactic => `(tactic| (
  funext a
  first
    | (match a with
       | ⟨0, _⟩ => rfl
       | ⟨1, _⟩ => rfl)
    | (match a with
       | ⟨0, _⟩ => rfl)))

/-! ## The four linear stages -/

/-- Stage 7 (the first node-side linear map) at (r, q). -/
theorem ref_v7_apply (x0 : (⟨S50000x128, .f32⟩ : BufTy).Contents (Elt Ideal)) (x5 : (⟨S128x128, .f32⟩ : BufTy).Contents (Elt Ideal)) (x6 : (⟨S128, .f32⟩ : BufTy).Contents (Elt Ideal)) (r : Fin 50000) (q : Fin 128) :
    Read.val_main_v7 (F := Ideal) x0 x5 x6 (ix2 r q) = linRow (fun k => x0 (ix2 r k)) (fun k => x5 (ix2 k q)) (x6 (ix1 q)) := by
  rw [Read.val_main_v7_apply, Read.val_main_v4_apply, Read.val_main_v6_apply, Read.val_main_v5_apply]
  have el : ∀ k, Read.lidx_main_v4 (ix2 r q) k = ix2 r k := fun k => by idx_cases
  have er : ∀ k, Read.ridx_main_v4 (ix2 r q) k = ix2 k q := fun k => by idx_cases
  have eb : Read.idx_main_v5 (Read.idx_main_v6 (ix2 r q)) = ix1 q := by idx_cases
  simp only [el, er, eb]
  rfl

/-- Stage 15 at (r, q). -/
theorem ref_v15_apply (x0 : (⟨S50000x128, .f32⟩ : BufTy).Contents (Elt Ideal)) (x9 : (⟨S128x128, .f32⟩ : BufTy).Contents (Elt Ideal)) (x10 : (⟨S128, .f32⟩ : BufTy).Contents (Elt Ideal)) (r : Fin 50000) (q : Fin 128) :
    Read.val_main_v15 (F := Ideal) x0 x9 x10 (ix2 r q) = linRow (fun k => x0 (ix2 r k)) (fun k => x9 (ix2 k q)) (x10 (ix1 q)) := by
  rw [Read.val_main_v15_apply, Read.val_main_v12_apply, Read.val_main_v14_apply, Read.val_main_v13_apply]
  have el : ∀ k, Read.lidx_main_v12 (ix2 r q) k = ix2 r k := fun k => by idx_cases
  have er : ∀ k, Read.ridx_main_v12 (ix2 r q) k = ix2 k q := fun k => by idx_cases
  have eb : Read.idx_main_v13 (Read.idx_main_v14 (ix2 r q)) = ix1 q := by idx_cases
  simp only [el, er, eb]
  rfl

/-- Stage 19 at (r, q). -/
theorem ref_v19_apply (x0 : (⟨S50000x128, .f32⟩ : BufTy).Contents (Elt Ideal)) (x11 : (⟨S128x128, .f32⟩ : BufTy).Contents (Elt Ideal)) (x12 : (⟨S128, .f32⟩ : BufTy).Contents (Elt Ideal)) (r : Fin 50000) (q : Fin 128) :
    Read.val_main_v19 (F := Ideal) x0 x11 x12 (ix2 r q) = linRow (fun k => x0 (ix2 r k)) (fun k => x11 (ix2 k q)) (x12 (ix1 q)) := by
  rw [Read.val_main_v19_apply, Read.val_main_v16_apply, Read.val_main_v18_apply, Read.val_main_v17_apply]
  have el : ∀ k, Read.lidx_main_v16 (ix2 r q) k = ix2 r k := fun k => by idx_cases
  have er : ∀ k, Read.ridx_main_v16 (ix2 r q) k = ix2 k q := fun k => by idx_cases
  have eb : Read.idx_main_v17 (Read.idx_main_v18 (ix2 r q)) = ix1 q := by idx_cases
  simp only [el, er, eb]
  rfl

/-- Stage 11 (the edge-side linear map) at (r, q). -/
theorem ref_v11_apply (x1 : (⟨S640000x128, .f32⟩ : BufTy).Contents (Elt Ideal)) (x7 : (⟨S128x128, .f32⟩ : BufTy).Contents (Elt Ideal)) (x8 : (⟨S128, .f32⟩ : BufTy).Contents (Elt Ideal)) (r : Fin 640000) (q : Fin 128) :
    Read.val_main_v11 (F := Ideal) x1 x7 x8 (ix2 r q) = linRow (fun k => x1 (ix2 r k)) (fun k => x7 (ix2 k q)) (x8 (ix1 q)) := by
  rw [Read.val_main_v11_apply, Read.val_main_v8_apply, Read.val_main_v10_apply, Read.val_main_v9_apply]
  have el : ∀ k, Read.lidx_main_v8 (ix2 r q) k = ix2 r k := fun k => by idx_cases
  have er : ∀ k, Read.ridx_main_v8 (ix2 r q) k = ix2 k q := fun k => by idx_cases
  have eb : Read.idx_main_v9 (Read.idx_main_v10 (ix2 r q)) = ix1 q := by idx_cases
  simp only [el, er, eb]
  rfl

end Cert.ReferenceIdeal.RefValue
-- ==== Proof.RefIdx2.lean ====
/-
  The reference's final node result read at one index, at the ideal values.

  The result is  y + (max(y·W1 + b1, 0)·W2 + b2)  with the hidden row  y = x + max((x·WA + bA) + aggr, 0),
  where aggr is the scatter-added messages, which stays the opaque stage it is.  Each dot_general reads at an
  index as a sum over the contraction coordinate, each 1-D bias broadcast reads its entry of the same column,
  and each maximum against a broadcast zero word is the maximum against 0.
-/
import proofs.«131460_j31344671326721_2_alg».proof.Proof.RefIdx

noncomputable section

namespace Cert.ReferenceIdeal.RefValue

open Cert.ReferenceIdeal Cert.ReferenceIdeal.Gen Cert.Spec Idealize.ShloMosaic Idealize.ShloMosaic.ValueIdx

/-- Two rank-2 (or rank-1) indices with the same coordinates are equal: by cases on the axis. -/
local macro "idx_by_axis" : tactic => `(tactic| (
  funext a
  first
    | (match a with
       | ⟨0, _⟩ => rfl
       | ⟨1, _⟩ => rfl)
    | (match a with
       | ⟨0, _⟩ => rfl)))

/-- Stage 3 (the self term of the node update) at (r, j). -/
theorem ref_v3_apply (x0 : (⟨S50000x128, .f32⟩ : BufTy).Contents (Elt Ideal)) (x3 : (⟨S128x128, .f32⟩ : BufTy).Contents (Elt Ideal)) (x4 : (⟨S128, .f32⟩ : BufTy).Contents (Elt Ideal)) (r : Fin 50000) (j : Fin 128) :
    Read.val_main_v3 (F := Ideal) x0 x3 x4 (ix2 r j) = linRow (fun k => x0 (ix2 r k)) (fun k => x3 (ix2 k j)) (x4 (ix1 j)) := by
  rw [Read.val_main_v3_apply, Read.val_main_v0_apply, Read.val_main_v2_apply, Read.val_main_v1_apply]
  have el : ∀ k, Read.lidx_main_v0 (ix2 r j) k = ix2 r k := fun k => by idx_by_axis
  have er : ∀ k, Read.ridx_main_v0 (ix2 r j) k = ix2 k j := fun k => by idx_by_axis
  have eb : Read.idx_main_v1 (Read.idx_main_v2 (ix2 r j)) = ix1 j := by idx_by_axis
  simp only [el, er, eb]
  rfl

/-- Stage 63 (the hidden row: the input plus the maximum against zero of the self term plus the
    scatter-added messages) at (r, j).  The scatter-add stays the opaque stage it is. -/
theorem ref_v63_apply (x0 : (⟨S50000x128, .f32⟩ : BufTy).Contents (Elt Ideal)) (x1 : (⟨S640000x128, .f32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x17 : (⟨S2x640000, .i32⟩ : BufTy).Contents (Elt Ideal)) (r : Fin 50000) (j : Fin 128) :
    Read.val_main_v63 (F := Ideal) x0 x1 x2 x3 x4 x5 x6 x7 x8 x9 x10 x11 x12 x17 (ix2 r j)
      = hidRow (fun k => x0 (ix2 r k)) (fun k => Read.val_main_v59 (F := Ideal) x0 x1 x2 x5 x6 x7 x8 x9 x10 x11 x12 x17 (ix2 r k))
          (fun l j => x3 (ix2 l j)) (fun j => x4 (ix1 j)) j := by
  rw [Read.val_main_v63_apply, Read.val_main_v61_apply, Read.val_main_v60_apply, Read.val_main_call0_v0_apply,
    Read.val_main_call0_cst_apply, ref_v3_apply]
  unfold hidRow
  exact congrArg (x0 (ix2 r j) + ·) (max_ofBits_zero _)

/-- Stage 69 (the feed-forward block's inner activation) at (r, k), in terms of row r of stage 63. -/
theorem ref_v69_apply (x0 : (⟨S50000x128, .f32⟩ : BufTy).Contents (Elt Ideal)) (x1 : (⟨S640000x128, .f32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S256, .f32⟩ : BufTy).Contents (Elt Ideal)) (x17 : (⟨S2x640000, .i32⟩ : BufTy).Contents (Elt Ideal)) (r : Fin 50000) (k : Fin 256) :
    Read.val_main_v69 (F := Ideal) x0 x1 x2 x3 x4 x5 x6 x7 x8 x9 x10 x11 x12 x13 x14 x17 (ix2 r k)
      = actRow (fun j => Read.val_main_v63 (F := Ideal) x0 x1 x2 x3 x4 x5 x6 x7 x8 x9 x10 x11 x12 x17 (ix2 r j)) (fun j k => x13 (ix2 j k)) (fun k => x14 (ix1 k)) k := by
  rw [Read.val_main_v69_apply, Read.val_main_v68_apply, Read.val_main_v65_apply, Read.val_main_v67_apply,
    Read.val_main_v66_apply, Read.val_main_call2_v0_apply, Read.val_main_call2_cst_apply]
  have el : ∀ j, Read.lidx_main_v65 (ix2 r k) j = ix2 r j := fun j => by idx_by_axis
  have er : ∀ j, Read.ridx_main_v65 (ix2 r k) j = ix2 j k := fun j => by idx_by_axis
  have eb : Read.idx_main_v66 (Read.idx_main_v67 (ix2 r k)) = ix1 k := by idx_by_axis
  simp only [el, er, eb]
  exact max_ofBits_zero _

/-- The final node result at (r, q): the specification's entry q for the input row r, the row r of the
    scatter-added messages, and the weights. -/
theorem ref_v74_apply (x0 : (⟨S50000x128, .f32⟩ : BufTy).Contents (Elt Ideal)) (x1 : (⟨S640000x128, .f32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S256, .f32⟩ : BufTy).Contents (Elt Ideal)) (x15 : (⟨S256x128, .f32⟩ : BufTy).Contents (Elt Ideal)) (x16 : (⟨S128, .f32⟩ : BufTy).Contents (Elt Ideal)) (x17 : (⟨S2x640000, .i32⟩ : BufTy).Contents (Elt Ideal)) (r : Fin 50000) (q : Fin 128) :
    Read.val_main_v74 (F := Ideal) x0 x1 x2 x3 x4 x5 x6 x7 x8 x9 x10 x11 x12 x13 x14 x15 x16 x17 (ix2 r q)
      = ffnRow (fun k => x0 (ix2 r k)) (fun k => Read.val_main_v59 (F := Ideal) x0 x1 x2 x5 x6 x7 x8 x9 x10 x11 x12 x17 (ix2 r k))
          (fun l j => x3 (ix2 l j)) (fun j => x4 (ix1 j)) (fun j k => x13 (ix2 j k)) (fun k => x14 (ix1 k))
          (fun k j => x15 (ix2 k j)) (fun j => x16 (ix1 j)) q := by
  rw [Read.val_main_v74_apply, Read.val_main_v73_apply, Read.val_main_v70_apply, Read.val_main_v72_apply,
    Read.val_main_v71_apply]
  have el : ∀ k, Read.lidx_main_v70 (ix2 r q) k = ix2 r k := fun k => by idx_by_axis
  have er : ∀ k, Read.ridx_main_v70 (ix2 r q) k = ix2 k q := fun k => by idx_by_axis
  have eb : Read.idx_main_v71 (Read.idx_main_v72 (ix2 r q)) = ix1 q := by idx_by_axis
  simp only [el, er, eb, ref_v69_apply, ref_v63_apply]
  rfl

end Cert.ReferenceIdeal.RefValue
-- ==== Proof.KI.Value.lean ====
/-
  What the idealized kernel program computes, as functions of its arguments: the two results are the reference's own two
  result stages applied to the launch contents of the arguments.
  Entry by entry: the first call's result is (row of x)·(column of the three weight matrices side by side) + the matching
  bias entry, so its three column ranges are the reference's three node projections; the second call's result is the
  reference's edge projection; the host operations between the calls are the reference's own edge computation applied to
  those projections, so the aggregated messages and the new edge features are the reference's; and the third call's
  result is, row by row, the reference's node update of the row of x and the row of aggregated messages.
-/
import proofs.«131460_j31344671326721_2_alg».proof.Proof.KI.Run
import proofs.«131460_j31344671326721_2_alg».proof.Proof.KI.HostA
import proofs.«131460_j31344671326721_2_alg».proof.Proof.KI.Arr0
import proofs.«131460_j31344671326721_2_alg».proof.Proof.KI.Arr1
import proofs.«131460_j31344671326721_2_alg».proof.Proof.KI.Arr2
import proofs.«131460_j31344671326721_2_alg».proof.Proof.RefIdx
import proofs.«131460_j31344671326721_2_alg».proof.Proof.RefIdx2

noncomputable section

namespace Cert.KernelIdeal.Val

open Cert.KernelIdeal Cert.KernelIdeal.Gen Cert.KernelIdeal.GenP Cert.KernelIdeal.Fr Cert.KernelIdeal.Host Cert.Spec
open Idealize.ShloMosaic Idealize.ShloMosaic.TcCoe Idealize.SL.Sem Idealize.ShloMosaic.ValueIdx
open Cert.ReferenceIdeal.Read Cert.ReferenceIdeal.RefValue

variable (m : (ℓ : Loc nD τ sig) → Buf (Elt Ideal) ℓ) (ρ : Dev nD → PrngReg) (c : Dev nD)

/-- Argument 0 as launched. -/
abbrev a0 : (⟨S50000x128, .f32⟩ : BufTy).Contents (Elt Ideal) := m ((c.tc : Thread nD τ).loc main_arg0)
/-- Argument 1 as launched. -/
abbrev a1 : (⟨S640000x128, .f32⟩ : BufTy).Contents (Elt Ideal) := m ((c.tc : Thread nD τ).loc main_arg1)
/-- Argument 2 as launched. -/
abbrev a2 : (⟨S640000, .f32⟩ : BufTy).Contents (Elt Ideal) := m ((c.tc : Thread nD τ).loc main_arg2)
/-- Argument 3 as launched. -/
abbrev a3 : (⟨S128x128, .f32⟩ : BufTy).Contents (Elt Ideal) := m ((c.tc : Thread nD τ).loc main_arg3)
/-- Argument 4 as launched. -/
abbrev a4 : (⟨S128, .f32⟩ : BufTy).Contents (Elt Ideal) := m ((c.tc : Thread nD τ).loc main_arg4)
/-- Argument 5 as launched. -/
abbrev a5 : (⟨S128x128, .f32⟩ : BufTy).Contents (Elt Ideal) := m ((c.tc : Thread nD τ).loc main_arg5)
/-- Argument 6 as launched. -/
abbrev a6 : (⟨S128, .f32⟩ : BufTy).Contents (Elt Ideal) := m ((c.tc : Thread nD τ).loc main_arg6)
/-- Argument 7 as launched. -/
abbrev a7 : (⟨S128x128, .f32⟩ : BufTy).Contents (Elt Ideal) := m ((c.tc : Thread nD τ).loc main_arg7)
/-- Argument 8 as launched. -/
abbrev a8 : (⟨S128, .f32⟩ : BufTy).Contents (Elt Ideal) := m ((c.tc : Thread nD τ).loc main_arg8)
/-- Argument 9 as launched. -/
abbrev a9 : (⟨S128x128, .f32⟩ : BufTy).Contents (Elt Ideal) := m ((c.tc : Thread nD τ).loc main_arg9)
/-- Argument 10 as launched. -/
abbrev a10 : (⟨S128, .f32⟩ : BufTy).Contents (Elt Ideal) := m ((c.tc : Thread nD τ).loc main_arg10)
/-- Argument 11 as launched. -/
abbrev a11 : (⟨S128x128, .f32⟩ : BufTy).Contents (Elt Ideal) := m ((c.tc : Thread nD τ).loc main_arg11)
/-- Argument 12 as launched. -/
abbrev a12 : (⟨S128, .f32⟩ : BufTy).Contents (Elt Ideal) := m ((c.tc : Thread nD τ).loc main_arg12)
/-- Argument 13 as launched. -/
abbrev a13 : (⟨S128x256, .f32⟩ : BufTy).Contents (Elt Ideal) := m ((c.tc : Thread nD τ).loc main_arg13)
/-- Argument 14 as launched. -/
abbrev a14 : (⟨S256, .f32⟩ : BufTy).Contents (Elt Ideal) := m ((c.tc : Thread nD τ).loc main_arg14)
/-- Argument 15 as launched. -/
abbrev a15 : (⟨S256x128, .f32⟩ : BufTy).Contents (Elt Ideal) := m ((c.tc : Thread nD τ).loc main_arg15)
/-- Argument 16 as launched. -/
abbrev a16 : (⟨S128, .f32⟩ : BufTy).Contents (Elt Ideal) := m ((c.tc : Thread nD τ).loc main_arg16)
/-- Argument 17 as launched. -/
abbrev a17 : (⟨S2x640000, .i32⟩ : BufTy).Contents (Elt Ideal) := m ((c.tc : Thread nD τ).loc main_arg17)

theorem linRow_congr {f f' g g' : Fin 128 → EReal} {b b' : EReal} (hf : ∀ k, f k = f' k) (hg : ∀ k, g k = g' k) (hb : b = b') :
    linRow f g b = linRow f' g' b' := by rw [funext hf, funext hg, hb]

theorem ffnRow_congr {xr xr' ar ar' : Fin 128 → EReal} {WA WA' : Fin 128 → Fin 128 → EReal} {bA bA' : Fin 128 → EReal}
    {W1 W1' : Fin 128 → Fin 256 → EReal} {b1 b1' : Fin 256 → EReal} {W2 W2' : Fin 256 → Fin 128 → EReal} {b2 b2' : Fin 128 → EReal} (q : Fin 128)
    (h1 : ∀ k, xr k = xr' k) (h2 : ∀ k, ar k = ar' k) (h3 : ∀ l j, WA l j = WA' l j) (h4 : ∀ j, bA j = bA' j)
    (h5 : ∀ j k, W1 j k = W1' j k) (h6 : ∀ k, b1 k = b1' k) (h7 : ∀ k j, W2 k j = W2' k j) (h8 : ∀ j, b2 j = b2' j) :
    ffnRow xr ar WA bA W1 b1 W2 b2 q = ffnRow xr' ar' WA' bA' W1' b1' W2' b2' q := by
  rw [funext h1, funext h2, (funext fun l => funext (h3 l) : WA = WA'), funext h4, (funext fun j => funext (h5 j) : W1 = W1'), funext h6,
    (funext fun k => funext (h7 k) : W2 = W2'), funext h8]

/-! ## The arguments at every boundary -/

theorem at1 (r : Ref sig .tc) (h0 : r ∉ hostOps0_W) : W1 m ρ c (Proc.devRef .tc r) = m ((c : Thread nD τ).loc r) :=
  (W1_of m ρ c r h0).trans rfl
theorem at2 (r : Ref sig .tc) (h0 : r ∉ hostOps0_W) (h1 : r ≠ main_v7) : W2 m ρ c (Proc.devRef .tc r) = m ((c : Thread nD τ).loc r) :=
  (W2_keep m ρ c r h1).trans (at1 m ρ c r h0)
theorem at3 (r : Ref sig .tc) (h0 : r ∉ hostOps0_W) (h1 : r ≠ main_v7) (h2 : r ∉ hostOps1_W) : W3 m ρ c (Proc.devRef .tc r) = m ((c : Thread nD τ).loc r) :=
  (W3_of m ρ c r h2).trans (at2 m ρ c r h0 h1)
theorem at4 (r : Ref sig .tc) (h0 : r ∉ hostOps0_W) (h1 : r ≠ main_v7) (h2 : r ∉ hostOps1_W) (h3 : r ≠ main_v12) : W4 m ρ c (Proc.devRef .tc r) = m ((c : Thread nD τ).loc r) :=
  (W4_keep m ρ c r h3).trans (at3 m ρ c r h0 h1 h2)
theorem at5 (r : Ref sig .tc) (h0 : r ∉ hostOps0_W) (h1 : r ≠ main_v7) (h2 : r ∉ hostOps1_W) (h3 : r ≠ main_v12) (h4 : r ∉ hostOps2_W) : W5 m ρ c (Proc.devRef .tc r) = m ((c : Thread nD τ).loc r) :=
  (W5_of m ρ c r h4).trans (at4 m ρ c r h0 h1 h2 h3)

/-! ## The first call's result and its three column ranges -/

/-- The first call's result, entry by entry. -/
theorem v7_apply (r : Fin 50000) (q : Fin 384) :
    (W2 m ρ c (Proc.devRef .tc main_v7) : S50000x384.Idx → EReal) (ix2 r q)
      = linRow (fun k => (a0 m c) (ix2 r k)) (fun k => (W1 m ρ c (Proc.devRef .tc main_v4) : S128x384.Idx → EReal) (ix2 k q))
          ((W1 m ρ c (Proc.devRef .tc main_v6) : S1x384.Idx → EReal) (ix2 (0 : Fin 1) q)) := by
  have e : (W2 m ρ c (Proc.devRef .tc main_v7) : S50000x384.Idx → EReal) = ((dat0 (U1 m ρ) c).arrAt 3 cfg0.N : S50000x384.Idx → EReal) :=
    W2_arr m ρ c 3
  refine (congrFun e _).trans ((final0 (U1 m ρ) c r q).trans ?_)
  exact linRow_congr (fun k => congrFun (at1 m ρ c main_arg0 (by decide)) _) (fun _ => rfl) rfl

/-- Its first column range is the reference's projection by the second weight matrix. -/
theorem v8_eq : (W3 m ρ c (Proc.devRef .tc main_v8) : (⟨S50000x128, .f32⟩ : BufTy).Contents (Elt Ideal)) = val_main_v7 (F := Ideal) (a0 m c) (a5 m c) (a6 m c) := by
  funext i
  obtain ⟨r, q, rfl⟩ : ∃ (r : Fin 50000) (q : Fin 128), i = ix2 r q := ⟨i 0, i 1, eq_ix2 i⟩
  rw [ref_v7_apply]
  refine (h1_v8_apply (W2 m ρ c) r q).trans ((v7_apply m ρ c r _).trans ?_)
  exact linRow_congr (fun _ => rfl) (fun k => h0_v4_first (W0 m ρ c) k q) (h0_v6_first (W0 m ρ c) q)

/-- Its second column range is the reference's projection by the fourth weight matrix. -/
theorem v9_eq : (W3 m ρ c (Proc.devRef .tc main_v9) : (⟨S50000x128, .f32⟩ : BufTy).Contents (Elt Ideal)) = val_main_v15 (F := Ideal) (a0 m c) (a9 m c) (a10 m c) := by
  funext i
  obtain ⟨r, q, rfl⟩ : ∃ (r : Fin 50000) (q : Fin 128), i = ix2 r q := ⟨i 0, i 1, eq_ix2 i⟩
  rw [ref_v15_apply]
  refine (h1_v9_apply (W2 m ρ c) r q).trans ((v7_apply m ρ c r _).trans ?_)
  exact linRow_congr (fun _ => rfl) (fun k => h0_v4_second (W0 m ρ c) k q) (h0_v6_second (W0 m ρ c) q)

/-- Its third column range is the reference's projection by the fifth weight matrix. -/
theorem v10_eq : (W3 m ρ c (Proc.devRef .tc main_v10) : (⟨S50000x128, .f32⟩ : BufTy).Contents (Elt Ideal)) = val_main_v19 (F := Ideal) (a0 m c) (a11 m c) (a12 m c) := by
  funext i
  obtain ⟨r, q, rfl⟩ : ∃ (r : Fin 50000) (q : Fin 128), i = ix2 r q := ⟨i 0, i 1, eq_ix2 i⟩
  rw [ref_v19_apply]
  refine (h1_v10_apply (W2 m ρ c) r q).trans ((v7_apply m ρ c r _).trans ?_)
  exact linRow_congr (fun _ => rfl) (fun k => h0_v4_third (W0 m ρ c) k q) (h0_v6_third (W0 m ρ c) q)

/-! ## The second call's result -/

/-- The second call's result is the reference's edge projection. -/
theorem v12_eq : (W4 m ρ c (Proc.devRef .tc main_v12) : (⟨S640000x128, .f32⟩ : BufTy).Contents (Elt Ideal)) = val_main_v11 (F := Ideal) (a1 m c) (a7 m c) (a8 m c) := by
  funext i
  obtain ⟨r, q, rfl⟩ : ∃ (r : Fin 640000) (q : Fin 128), i = ix2 r q := ⟨i 0, i 1, eq_ix2 i⟩
  have e : (W4 m ρ c (Proc.devRef .tc main_v12) : S640000x128.Idx → EReal) = ((dat1 (U3 m ρ) c).arrAt 3 cfg1.N : S640000x128.Idx → EReal) :=
    W4_arr m ρ c 3
  rw [ref_v11_apply]
  refine (congrFun e _).trans ((final1 (U3 m ρ) c r q).trans ?_)
  exact linRow_congr (fun k => congrFun (at3 m ρ c main_arg1 (by decide) (by decide) (by decide)) _)
    (fun k => congrFun (at3 m ρ c main_arg7 (by decide) (by decide) (by decide)) _)
    ((h1_v11_apply (W2 m ρ c) q).trans (congrFun (at2 m ρ c main_arg8 (by decide) (by decide)) _))

/-! ## The edge computation between the calls -/

theorem v1_eq : (W4 m ρ c (Proc.devRef .tc main_v1) : (⟨S640000, .i32⟩ : BufTy).Contents (Elt Ideal)) = val_main_v21 (F := Ideal) (a17 m c) :=
  (W4_keep m ρ c main_v1 (by decide)).trans <| (W3_of m ρ c main_v1 (by decide)).trans <| (W2_keep m ρ c main_v1 (by decide)).trans <|
    h0_v1 (W0 m ρ c)
theorem v3_eq : (W4 m ρ c (Proc.devRef .tc main_v3) : (⟨S640000, .i32⟩ : BufTy).Contents (Elt Ideal)) = val_main_v23 (F := Ideal) (a17 m c) :=
  (W4_keep m ρ c main_v3 (by decide)).trans <| (W3_of m ρ c main_v3 (by decide)).trans <| (W2_keep m ρ c main_v3 (by decide)).trans <|
    h0_v3 (W0 m ρ c)

/-- The new edge features are the reference's. -/
theorem v48_eq : (W5 m ρ c (Proc.devRef .tc main_v48) : (⟨S640000x128, .f32⟩ : BufTy).Contents (Elt Ideal))
    = val_main_v64 (F := Ideal) (a0 m c) (a1 m c) (a7 m c) (a8 m c) (a9 m c) (a10 m c) (a11 m c) (a12 m c) (a17 m c) :=
  h2_v48 (W4 m ρ c) (a0 m c) (a1 m c) (a7 m c) (a8 m c) (a9 m c) (a10 m c) (a11 m c) (a12 m c) (a17 m c)
    (at4 m ρ c main_arg1 (by decide) (by decide) (by decide) (by decide))
    ((W4_keep m ρ c main_v9 (by decide)).trans (v9_eq m ρ c))
    ((W4_keep m ρ c main_v10 (by decide)).trans (v10_eq m ρ c))
    (v12_eq m ρ c) (v1_eq m ρ c) (v3_eq m ρ c)

/-- The aggregated messages are the reference's. -/
theorem v51_eq : (W5 m ρ c (Proc.devRef .tc main_v51) : (⟨S50000x128, .f32⟩ : BufTy).Contents (Elt Ideal))
    = val_main_v59 (F := Ideal) (a0 m c) (a1 m c) (a2 m c) (a5 m c) (a6 m c) (a7 m c) (a8 m c) (a9 m c) (a10 m c) (a11 m c) (a12 m c) (a17 m c) :=
  h2_v51 (W4 m ρ c) (a0 m c) (a1 m c) (a2 m c) (a5 m c) (a6 m c) (a7 m c) (a8 m c) (a9 m c) (a10 m c) (a11 m c) (a12 m c) (a17 m c)
    (at4 m ρ c main_arg2 (by decide) (by decide) (by decide) (by decide))
    ((W4_keep m ρ c main_v8 (by decide)).trans (v8_eq m ρ c))
    ((W4_keep m ρ c main_v9 (by decide)).trans (v9_eq m ρ c))
    ((W4_keep m ρ c main_v10 (by decide)).trans (v10_eq m ρ c))
    (v12_eq m ρ c) (v1_eq m ρ c) (v3_eq m ρ c)

/-! ## The two results -/

/-- The node result is the reference's. -/
theorem v55_eq : (W6 m ρ c (Proc.devRef .tc main_v55) : (⟨S50000x128, .f32⟩ : BufTy).Contents (Elt Ideal))
    = val_main_v74 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  funext i
  obtain ⟨r, q, rfl⟩ : ∃ (r : Fin 50000) (q : Fin 128), i = ix2 r q := ⟨i 0, i 1, eq_ix2 i⟩
  have e : (W6 m ρ c (Proc.devRef .tc main_v55) : S50000x128.Idx → EReal) = ((dat2 (U5 m ρ) c).arrAt 8 cfg2.N : S50000x128.Idx → EReal) :=
    W6_arr m ρ c 8
  rw [ref_v74_apply]
  refine (congrFun e _).trans ((final2 (U5 m ρ) c r q).trans ?_)
  exact ffnRow_congr q
    (fun k => congrFun (at5 m ρ c main_arg0 (by decide) (by decide) (by decide) (by decide) (by decide)) _)
    (fun k => congrFun (v51_eq m ρ c) _)
    (fun l j => congrFun (at5 m ρ c main_arg3 (by decide) (by decide) (by decide) (by decide) (by decide)) _)
    (fun j => (h2_v52_apply (W4 m ρ c) j).trans (congrFun (at4 m ρ c main_arg4 (by decide) (by decide) (by decide) (by decide)) _))
    (fun j k => congrFun (at5 m ρ c main_arg13 (by decide) (by decide) (by decide) (by decide) (by decide)) _)
    (fun k => (h2_v53_apply (W4 m ρ c) k).trans (congrFun (at4 m ρ c main_arg14 (by decide) (by decide) (by decide) (by decide)) _))
    (fun k j => congrFun (at5 m ρ c main_arg15 (by decide) (by decide) (by decide) (by decide) (by decide)) _)
    (fun j => (h2_v54_apply (W4 m ρ c) j).trans (congrFun (at4 m ρ c main_arg16 (by decide) (by decide) (by decide) (by decide)) _))

/-- The edge result is the reference's. -/
theorem v48_final : (W6 m ρ c (Proc.devRef .tc main_v48) : (⟨S640000x128, .f32⟩ : BufTy).Contents (Elt Ideal))
    = val_main_v64 (F := Ideal) (a0 m c) (a1 m c) (a7 m c) (a8 m c) (a9 m c) (a10 m c) (a11 m c) (a12 m c) (a17 m c) :=
  (W6_keep m ρ c main_v48 (by decide)).trans (v48_eq m ρ c)

/-- Every fair execution of the idealized kernel program terminates, faulting nowhere, with the two results at the
    reference's stages of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55) = val_main_v74 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
      ∧ r.2.mem ((c.tc : Thread nD τ).loc main_v48) = val_main_v64 (F := Ideal) (a0 m c) (a1 m c) (a7 m c) (a8 m c) (a9 m c) (a10 m c) (a11 m c) (a12 m c) (a17 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v55 (by decide))).trans (v55_eq m ρ c),
     (h c _ (mem_uc main_v48 (by decide))).trans (v48_final m ρ c),
     (h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide)),
     (h c _ (mem_uc main_arg5 (by decide))).trans (W6_arg m ρ c main_arg5 (by decide) (by decide) (by decide) (by decide) (by decide) (by decide)),
     (h c _ (mem_uc main_arg6 (by decide))).trans (W6_arg m ρ c main_arg6 (by decide) (by decide) (by decide) (by decide) (by decide) (by decide)),
     (h c _ (mem_uc main_arg7 (by decide))).trans (W6_arg m ρ c main_arg7 (by decide) (by decide) (by decide) (by decide) (by decide) (by decide)),
     (h c _ (mem_uc main_arg8 (by decide))).trans (W6_arg m ρ c main_arg8 (by decide) (by decide) (by decide) (by decide) (by decide) (by decide)),
     (h c _ (mem_uc main_arg9 (by decide))).trans (W6_arg m ρ c main_arg9 (by decide) (by decide) (by decide) (by decide) (by decide) (by decide)),
     (h c _ (mem_uc main_arg10 (by decide))).trans (W6_arg m ρ c main_arg10 (by decide) (by decide) (by decide) (by decide) (by decide) (by decide)),
     (h c _ (mem_uc main_arg11 (by decide))).trans (W6_arg m ρ c main_arg11 (by decide) (by decide) (by decide) (by decide) (by decide) (by decide)),
     (h c _ (mem_uc main_arg12 (by decide))).trans (W6_arg m ρ c main_arg12 (by decide) (by decide) (by decide) (by decide) (by decide) (by decide)),
     (h c _ (mem_uc main_arg13 (by decide))).trans (W6_arg m ρ c main_arg13 (by decide) (by decide) (by decide) (by decide) (by decide) (by decide)),
     (h c _ (mem_uc main_arg14 (by decide))).trans (W6_arg m ρ c main_arg14 (by decide) (by decide) (by decide) (by decide) (by decide) (by decide)),
     (h c _ (mem_uc main_arg15 (by decide))).trans (W6_arg m ρ c main_arg15 (by decide) (by decide) (by decide) (by decide) (by decide) (by decide)),
     (h c _ (mem_uc main_arg16 (by decide))).trans (W6_arg m ρ c main_arg16 (by decide) (by decide) (by decide) (by decide) (by decide) (by decide)),
     (h c _ (mem_uc main_arg17 (by decide))).trans (W6_arg m ρ c main_arg17 (by decide) (by decide) (by decide) (by decide) (by decide) (by decide))⟩)
    (run_all m ρ)

end Cert.KernelIdeal.Val

end
-- ==== Proof.lean ====
/-
  The five claims. Both kernel programs run to the end leaving their arguments as launched: their three kernel calls
  write only their own result arrays, and no host operation writes an argument. The reference runs to the end because it
  is a straight line of host operations. Nothing was rewritten when the kernel was idealized. And over the extended reals
  the idealized kernel's two results are the reference's own two result stages applied to the same arguments: the fused
  projection's column ranges and the edge projection are the reference's projections, the edge computation between the
  calls is the reference's own, and the node update is the reference's row by row.
-/
import proofs.«131460_j31344671326721_2_alg».proof.Defs
import proofs.«131460_j31344671326721_2_alg».proof.Proof.Gen.Kernel
import proofs.«131460_j31344671326721_2_alg».proof.Proof.Gen.KernelIdeal
import proofs.«131460_j31344671326721_2_alg».proof.Proof.Gen.ReferenceIdeal
import proofs.«131460_j31344671326721_2_alg».proof.Proof.Gen.Pre_finite_inputs
import proofs.«131460_j31344671326721_2_alg».proof.Proof.Gen.ReferenceIdeal.Read
import proofs.«131460_j31344671326721_2_alg».proof.Proof.K.Run
import proofs.«131460_j31344671326721_2_alg».proof.Proof.KI.Value
import Idealize.ShloMosaic.Adequacy
import Idealize.ShloMosaic.Init

noncomputable section

namespace Cert.Proof

open Idealize.ShloMosaic Idealize.ShloMosaic.TcCoe Idealize.SL.Sem

/-- The kernel program as printed runs to the end and its arguments end as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is a straight line of host operations: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 4000000 in
/-- From memories that agree on the arguments, both idealized programs end with the reference's two result stages of
    those arguments. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    refine (Cert.ReferenceIdeal.Read.val_main_v74_eq (F := Ideal) m' c).trans ?_
    rw [h0, h1, h2, h3, h4, h5, h6, h7, h8, h9, h10, h11, h12, h13, h14, h15, h16, h17]
  · obtain ⟨h0, h1, h2, h3, h4, h5, h6, h7, h8, h9, h10, h11, h12, h13, h14, h15, h16, h17⟩ := hagree c
    refine (Cert.ReferenceIdeal.Read.val_main_v64_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg17))).trans ?_
    rw [h0, h1, h7, h8, h9, h10, h11, h12, h17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
